-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_arg0)) (v3 : (c : Dev Cert.KernelIdeal.nD) → Buf (Elt Ideal) ((c.tc : Thread Cert.KernelIdeal.nD Cert.KernelIdeal.τ).loc Cert.KernelIdeal.main_v4_1)) (v4 : (c : Dev Cert.KernelIdeal.nD) → Buf (Elt Ideal) ((c.tc : Thread Cert.KernelIdeal.nD Cert.KernelIdeal.τ).loc Cert.KernelIdeal.main_v4_2)) (v5 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_v4_1) = v3 c
          ∧ r.2.mem ((c.tc : Thread Cert.KernelIdeal.nD Cert.KernelIdeal.τ).loc Cert.KernelIdeal.main_v4_2) = v4 c
          ∧ r.2.mem ((c.tc : Thread Cert.KernelIdeal.nD Cert.KernelIdeal.τ).loc Cert.KernelIdeal.main_v4_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  main_v18

def fn {F : FTy → Type} [FloatOps F] (main_arg0 : FVec F S8192x256 .f32) (main_arg1 : FVec F S8192x256 .f32) (main_arg2 : FVec F S4096x256 .f32) (main_arg3 : FVec F S4096x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_v13 main_v16
-- ==== Kernel.lean ====
abbrev S8192x256 : Shape := ⟨2, ![8192, 256]⟩
abbrev S4096x256 : Shape := ⟨2, ![4096, 256]⟩
abbrev S_ : Shape := ⟨0, ![]⟩
abbrev S4096 : Shape := ⟨1, ![4096]⟩
abbrev S1x4096 : Shape := ⟨2, ![1, 4096]⟩
abbrev S8192x4096 : Shape := ⟨2, ![8192, 4096]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S8192x256, .f32⟩
  | .hbm, ⟨15, _⟩ => ⟨S8192x256, .f32⟩
  | .hbm, ⟨16, _⟩ => ⟨S8192x4096, .f32⟩
  | .hbm, ⟨17, _⟩ => ⟨S8192x4096, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S4096x256, .f32⟩
  | .local _ .vmem, ⟨5, _⟩ => ⟨S4096x256, .f32⟩
  | .local _ .vmem, ⟨6, _⟩ => ⟨S1x4096, .f32⟩
  | .local _ .vmem, ⟨7, _⟩ => ⟨S1x4096, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v0 : Ref sig .tc := ⟨.hbm, 7, rfl⟩
abbrev main_v1 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  reducesTo_S4096x256_S4096_d1 : S4096x256.ReducesTo [1] S4096
  h_S_ : 0 < S_.numel
  bcast_S4096_S1x4096_1 : S4096.BroadcastsInDim S1x4096 (![1] : Fin 1 → Fin S1x4096.rank)
  inb_S256x256_S256x256_0_0 : ∀ a, (![0, 0] : Fin 2 → Nat) a + S256x256.size a ≤ S256x256.size a
  h_S256x256 : 0 < S256x256.numel
  inb_S4096x256_S4096x256_0_0 : ∀ a, (![0, 0] : Fin 2 → Nat) a + S4096x256.size a ≤ S4096x256.size a
  h_S4096x256 : 0 < S4096x256.numel
  reduces_S256x256_S256 : S256x256.Reduces [1] S256
  shapeCasts_S256_S256x1 : S256.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  reduces_S256x4096_S256 : S256x4096.Reduces [1] S256
  inb_S256x4096_S256x4096_0_0 : ∀ a, (![0, 0] : Fin 2 → Nat) a + S256x4096.size a ≤ S256x4096.size a
  h_S256x4096 : 0 < S256x4096.numel
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x256.size a
  hwx0_1 : ∀ i : grid0.Coords, EltTy.bits .f32 = 32 ∨ (Rect.block (s := S8192x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S8192x256.size a
  hwx0_6 : ∀ i : grid0.Coords, EltTy.bits .f32 = 32 ∨ (Rect.block (s := S8192x256) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S8192x256.size a
  hwx0_7 : ∀ i : grid0.Coords, EltTy.bits .f32 = 32 ∨ (Rect.block (s := S8192x256) S256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4096.size a ≤ S8192x4096.size a
  hwx0_8 : ∀ i : grid0.Coords, EltTy.bits .f32 = 32 ∨ (Rect.block (s := S8192x4096) S256x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S8192x4096.size a
  hwx0_9 : ∀ i : grid0.Coords, EltTy.bits .f32 = 32 ∨ (Rect.block (s := S8192x4096) S256x4096.size (cc0_transform_9 i) (hinb0_9 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S256x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_3) S256x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S256x4096 : Shape := ⟨2, ![256, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4096x256, .f32⟩
  | .hbm, ⟨3, _⟩ => ⟨S4096x256, .f32⟩
  | .hbm, ⟨4, _⟩ => ⟨S256x4096, .f32⟩
  | .hbm, ⟨5, _⟩ => ⟨S8192x4096, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x4096, .f32⟩
  | .hbm, ⟨51, _⟩ => ⟨S8192x4096, .f32⟩
  | .hbm, ⟨52, _⟩ => ⟨S8192x256, .f32⟩
  | .hbm, ⟨53, _⟩ => ⟨S256x4096, .f32⟩
  | .hbm, ⟨54, _⟩ => ⟨S8192x4096, .f32⟩
  | .hbm, ⟨55, _⟩ => ⟨S8192x256, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1, .f32⟩
  | .hbm, ⟨60, _⟩ => ⟨S4096x256, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S1x4096, .f32⟩
  | .hbm, ⟨65, _⟩ => ⟨S8192x4096, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S8192x4096, .f32⟩
  | .hbm, ⟨70, _⟩ => ⟨S8192x4096, .f32⟩
  | .hbm, ⟨71, _⟩ => ⟨S8192x4096, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192x1, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1, .f32⟩
  | .hbm, ⟨85, _⟩ => ⟨S8192x4096, .f32⟩
  | .hbm, ⟨86, _⟩ => ⟨S8192x4096, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192x1, .f32⟩
  | .hbm, ⟨93, _⟩ => ⟨S8192x4096, .f32⟩
  | .hbm, ⟨94, _⟩ => ⟨S8192x4096, .f32⟩
  | .hbm, ⟨95, _⟩ => ⟨S8192x4096, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x4096, .f32⟩
  | .hbm, ⟨100, _⟩ => ⟨S8192x4096, .f32⟩
  | .hbm, ⟨101, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call2_cst : Ref sig .tc := ⟨.hbm, 23, rfl⟩
abbrev main_call2_v0 : Ref sig .tc := ⟨.hbm, 24, rfl⟩
abbrev main_call2_cst_0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_cst_1 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_v11 : Ref sig .tc := ⟨.hbm, 37, rfl⟩
abbrev main_cst_0 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call3_v0 : Ref sig .tc := ⟨.hbm, 55, rfl⟩
abbrev main_call3_cst : Ref sig .tc := ⟨.hbm, 56, rfl⟩
abbrev main_call3_v1 : Ref sig .tc := ⟨.hbm, 57, rfl⟩
abbrev main_call3_v2 : Ref sig .tc := ⟨.hbm, 58, rfl⟩
abbrev main_v26 : Ref sig .tc := ⟨.hbm, 59, rfl⟩
abbrev main_call4_v0 : Ref sig .tc := ⟨.hbm, 60, rfl⟩
abbrev main_call4_cst : Ref sig .tc := ⟨.hbm, 61, rfl⟩
abbrev main_call4_v1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_3 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call5_cst : Ref sig .tc := ⟨.hbm, 72, rfl⟩
abbrev main_call5_v0 : Ref sig .tc := ⟨.hbm, 73, rfl⟩
abbrev main_call5_cst_0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_cst_1 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_v35 : Ref sig .tc := ⟨.hbm, 86, rfl⟩
abbrev main_cst_4 : Ref sig .tc := ⟨.hbm, 87, rfl⟩
abbrev main_v36 : Ref sig .tc := ⟨.hbm, 88, rfl⟩
abbrev main_cst_5 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_6 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩

abbrev nD : Nat := 1
abbrev τ : Topo := Topo.v7x

variable {F : FTy → Type} [FloatOps F]

class Facts₀ : Prop where
  transposes_S4096x256_S256x4096_1_0 : S4096x256.Transposes [1, 0] S256x4096
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S4096x256_S4096_d1 : S4096x256.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  bcast_S_S8192 : S_.BroadcastsInDim S8192 (![] : Fin 0 → Fin S8192.rank)
  dot_S8192x256_S256x4096_S8192x4096_1_0_0_1_n_n_wf : DotDims.WF S8192x256 S256x4096 S8192x4096 [1] [0] [0] [1] [] []
  dot_S8192x4096_S4096x256_S8192x256_1_0_0_1_n_n_wf : DotDims.WF S8192x4096 S4096x256 S8192x256 [1] [0] [0] [1] [] []

variable [Facts₀]

def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf
def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf

class Facts : Prop extends Facts₀ where

variable [Facts]
-- ==== Proof.LibStagedRun.lean ====
/-
  Reading a long straight line of host operations piece by piece: the round trips of a module-local function.

  The buffer contents after a line of operations are a fold of the operations' results, so a line cut into consecutive
  pieces is read one piece at a time, each from ANY starting contents; a value several later operations read (a score
  array feeding a softmax) then stands for one buffer in the pieces after it instead of being repeated in every
  composed term.  An operation inside a module-local function carries its operands from their buffers' own types to the
  values' types and its result back, and a piece made of such operations composes into a term with one such round trip
  per intermediate value.  A value carried to a buffer's type and back is the value: rewriting with this fact removes
  every round trip at once, and what is left is the plain composition of the operations.
-/
import Idealize.ShloMosaic.Lib.StableHlo.Run

noncomputable section

namespace Idealize.ShloMosaic.StagedRun

open Idealize.ShloMosaic Idealize.ShloMosaic.StableHlo

variable {sig : RefSig} {Val : EltTy → Type}

/-- Contents carried to a buffer's own type and back are the contents. -/
theorem ofBuf_toBuf {T : BufTy} (x : TRef sig T) (v : T.Contents Val) : x.ofBuf (x.toBuf v) = v := by
  obtain ⟨r, h, hd, hs⟩ := x
  subst h
  rfl

end Idealize.ShloMosaic.StagedRun

end
-- ==== Proof.RefRun.lean ====
/-
  The reference program's run, stage by stage.

  The reference is a straight line of 98 host operations in six consecutive pieces: for each of the two pathways, the
  scores of all queries (19 operations), the logarithmic addresses (15: a row-wise log-softmax of the scores), and the
  addresses with the recalled rows (15: a row-wise softmax of the scores and a matrix product with the value memory).
  Each piece, run from ANY contents of the buffers, leaves its result a function of the few buffers it reads and leaves
  every buffer it does not write alone; so the contents after the whole line are read piece by piece, the scores standing
  for one buffer in the later pieces.  The four computed results are the stages the reading module names, at the
  arguments' launch contents.
-/
import proofs.«151269_j75428215652524_1_alg».proof.Proof.RefOps
import proofs.«151269_j75428215652524_1_alg».proof.Proof.RefRead
import proofs.«151269_j75428215652524_1_alg».proof.Proof.LibStagedRun
import Idealize.ShloMosaic.Lib.StableHlo.Run

noncomputable section

namespace Cert.ReferenceIdeal.StagedRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Idealize.ShloMosaic.StagedRun (ofBuf_toBuf)

variable {F : FTy → Type} [FloatOps F]

/-- The row-wise log-softmax of a score array, as the reference spells it. -/
def logSoftmaxOf (z : (⟨S8192x4096, .f32⟩ : BufTy).Contents (Elt F)) : (⟨S8192x4096, .f32⟩ : BufTy).Contents (Elt F) :=
  subf (subf z (broadcastInDim S8192x4096 ![0, 1] bcast_S8192x1_S8192x4096_0_1 (broadcastInDim S8192x1 ![0] bcast_S8192_S8192x1_0
      (maximumf (broadcastInDim S8192 ![] bcast_S_S8192 (constant S_ .f32 0xFF800000#32))
        (Host.reduce FloatOps.maximumf z (constant S_ .f32 0xFF800000#32) reducesTo_S8192x4096_S8192_d1 h_S_)))))
    (broadcastInDim S8192x4096 ![0, 1] bcast_S8192x1_S8192x4096_0_1 (Host.log (broadcastInDim S8192x1 ![0] bcast_S8192_S8192x1_0
      (Host.reduceAdd (Host.exp (subf z (broadcastInDim S8192x4096 ![0, 1] bcast_S8192x1_S8192x4096_0_1
        (broadcastInDim S8192x1 ![0] bcast_S8192_S8192x1_0
          (maximumf (broadcastInDim S8192 ![] bcast_S_S8192 (constant S_ .f32 0xFF800000#32))
            (Host.reduce FloatOps.maximumf z (constant S_ .f32 0xFF800000#32) reducesTo_S8192x4096_S8192_d1 h_S_))))))
        (constant S_ .f32 0x00000000#32) reducesTo_S8192x4096_S8192_d1 h_S_))))

/-- The row-wise softmax of a score array, as the reference spells it. -/
def softmaxOf (z : (⟨S8192x4096, .f32⟩ : BufTy).Contents (Elt F)) : (⟨S8192x4096, .f32⟩ : BufTy).Contents (Elt F) :=
  Host.divf (Host.exp (subf z (broadcastInDim S8192x4096 ![0, 1] bcast_S8192x1_S8192x4096_0_1
      (broadcastInDim S8192x1 ![0] bcast_S8192_S8192x1_0
        (maximumf (broadcastInDim S8192 ![] bcast_S_S8192 (constant S_ .f32 0xFF800000#32))
          (Host.reduce FloatOps.maximumf z (constant S_ .f32 0xFF800000#32) reducesTo_S8192x4096_S8192_d1 h_S_))))))
    (broadcastInDim S8192x4096 ![0, 1] bcast_S8192x1_S8192x4096_0_1 (broadcastInDim S8192x1 ![0] bcast_S8192_S8192x1_0
      (Host.reduceAdd (Host.exp (subf z (broadcastInDim S8192x4096 ![0, 1] bcast_S8192x1_S8192x4096_0_1
        (broadcastInDim S8192x1 ![0] bcast_S8192_S8192x1_0
          (maximumf (broadcastInDim S8192 ![] bcast_S_S8192 (constant S_ .f32 0xFF800000#32))
            (Host.reduce FloatOps.maximumf z (constant S_ .f32 0xFF800000#32) reducesTo_S8192x4096_S8192_d1 h_S_))))))
        (constant S_ .f32 0x00000000#32) reducesTo_S8192x4096_S8192_d1 h_S_)))

/-- The stages the reading module names are these functions of the scores (by unfolding). -/
theorem logAddress_stage (x : (⟨S8192x256, .f32⟩ : BufTy).Contents (Elt F)) (y : (⟨S4096x256, .f32⟩ : BufTy).Contents (Elt F)) :
    logSoftmaxOf (val_main_v10 (F := F) x y) = val_main_v11 (F := F) x y := rfl

theorem address_stage (x : (⟨S8192x256, .f32⟩ : BufTy).Contents (Elt F)) (y : (⟨S4096x256, .f32⟩ : BufTy).Contents (Elt F)) :
    softmaxOf (val_main_v10 (F := F) x y) = val_main_v22 (F := F) x y := rfl

theorem faceScores_stage (x : (⟨S8192x256, .f32⟩ : BufTy).Contents (Elt F)) (y : (⟨S4096x256, .f32⟩ : BufTy).Contents (Elt F)) :
    val_main_v34 (F := F) x y = val_main_v10 (F := F) x y := rfl

/-! ## Each piece from any contents: its result -/

theorem stageA1 (V : Valuation τ sig (Elt F)) :
    after opsA1 V (Proc.devRef .tc main_v10)
      = val_main_v10 (F := F) (V (Proc.devRef .tc main_arg1)) (V (Proc.devRef .tc main_arg2)) := by
  after_results_simp <;> (try simp only [ofBuf_toBuf]) <;> rfl

theorem stageA2 (V : Valuation τ sig (Elt F)) :
    after opsA2 V (Proc.devRef .tc main_v11) = logSoftmaxOf (F := F) (V (Proc.devRef .tc main_v10)) := by
  after_results_simp <;> (try simp only [ofBuf_toBuf]) <;> rfl

theorem stageA3 (V : Valuation τ sig (Elt F)) :
    after opsA3 V (Proc.devRef .tc main_v23)
      = Host.dotGeneral (φ₁ := .f32) (φ₂ := .f32) dot_S8192x4096_S4096x256_S8192x256_1_0_0_1_n_n none
          (softmaxOf (F := F) (V (Proc.devRef .tc main_v10))) (V (Proc.devRef .tc main_arg2)) := by
  after_results_simp <;> (try simp only [ofBuf_toBuf]) <;> rfl

theorem stageB1 (V : Valuation τ sig (Elt F)) :
    after opsB1 V (Proc.devRef .tc main_v34)
      = val_main_v34 (F := F) (V (Proc.devRef .tc main_arg0)) (V (Proc.devRef .tc main_arg3)) := by
  after_results_simp <;> (try simp only [ofBuf_toBuf]) <;> rfl

theorem stageB2 (V : Valuation τ sig (Elt F)) :
    after opsB2 V (Proc.devRef .tc main_v35) = logSoftmaxOf (F := F) (V (Proc.devRef .tc main_v34)) := by
  after_results_simp <;> (try simp only [ofBuf_toBuf]) <;> rfl

theorem stageB3 (V : Valuation τ sig (Elt F)) :
    after opsB3 V (Proc.devRef .tc main_v47)
      = Host.dotGeneral (φ₁ := .f32) (φ₂ := .f32) dot_S8192x4096_S4096x256_S8192x256_1_0_0_1_n_n none
          (softmaxOf (F := F) (V (Proc.devRef .tc main_v34))) (V (Proc.devRef .tc main_arg2)) := by
  after_results_simp <;> (try simp only [ofBuf_toBuf]) <;> rfl

/-! ## Each piece from any contents: what it leaves alone -/

theorem keepA1_arg0 (V : Valuation τ sig (Elt F)) :
    after opsA1 V (Proc.devRef .tc main_arg0) = V (Proc.devRef .tc main_arg0) := by
  after_results_simp
theorem keepA1_arg1 (V : Valuation τ sig (Elt F)) :
    after opsA1 V (Proc.devRef .tc main_arg1) = V (Proc.devRef .tc main_arg1) := by
  after_results_simp
theorem keepA1_arg2 (V : Valuation τ sig (Elt F)) :
    after opsA1 V (Proc.devRef .tc main_arg2) = V (Proc.devRef .tc main_arg2) := by
  after_results_simp
theorem keepA1_arg3 (V : Valuation τ sig (Elt F)) :
    after opsA1 V (Proc.devRef .tc main_arg3) = V (Proc.devRef .tc main_arg3) := by
  after_results_simp
theorem keepA2_v10 (V : Valuation τ sig (Elt F)) :
    after opsA2 V (Proc.devRef .tc main_v10) = V (Proc.devRef .tc main_v10) := by
  after_results_simp
theorem keepA2_arg0 (V : Valuation τ sig (Elt F)) :
    after opsA2 V (Proc.devRef .tc main_arg0) = V (Proc.devRef .tc main_arg0) := by
  after_results_simp
theorem keepA2_arg1 (V : Valuation τ sig (Elt F)) :
    after opsA2 V (Proc.devRef .tc main_arg1) = V (Proc.devRef .tc main_arg1) := by
  after_results_simp
theorem keepA2_arg2 (V : Valuation τ sig (Elt F)) :
    after opsA2 V (Proc.devRef .tc main_arg2) = V (Proc.devRef .tc main_arg2) := by
  after_results_simp
theorem keepA2_arg3 (V : Valuation τ sig (Elt F)) :
    after opsA2 V (Proc.devRef .tc main_arg3) = V (Proc.devRef .tc main_arg3) := by
  after_results_simp
theorem keepA3_v11 (V : Valuation τ sig (Elt F)) :
    after opsA3 V (Proc.devRef .tc main_v11) = V (Proc.devRef .tc main_v11) := by
  after_results_simp
theorem keepA3_arg0 (V : Valuation τ sig (Elt F)) :
    after opsA3 V (Proc.devRef .tc main_arg0) = V (Proc.devRef .tc main_arg0) := by
  after_results_simp
theorem keepA3_arg1 (V : Valuation τ sig (Elt F)) :
    after opsA3 V (Proc.devRef .tc main_arg1) = V (Proc.devRef .tc main_arg1) := by
  after_results_simp
theorem keepA3_arg2 (V : Valuation τ sig (Elt F)) :
    after opsA3 V (Proc.devRef .tc main_arg2) = V (Proc.devRef .tc main_arg2) := by
  after_results_simp
theorem keepA3_arg3 (V : Valuation τ sig (Elt F)) :
    after opsA3 V (Proc.devRef .tc main_arg3) = V (Proc.devRef .tc main_arg3) := by
  after_results_simp
theorem keepB1_v11 (V : Valuation τ sig (Elt F)) :
    after opsB1 V (Proc.devRef .tc main_v11) = V (Proc.devRef .tc main_v11) := by
  after_results_simp
theorem keepB1_v23 (V : Valuation τ sig (Elt F)) :
    after opsB1 V (Proc.devRef .tc main_v23) = V (Proc.devRef .tc main_v23) := by
  after_results_simp
theorem keepB1_arg0 (V : Valuation τ sig (Elt F)) :
    after opsB1 V (Proc.devRef .tc main_arg0) = V (Proc.devRef .tc main_arg0) := by
  after_results_simp
theorem keepB1_arg1 (V : Valuation τ sig (Elt F)) :
    after opsB1 V (Proc.devRef .tc main_arg1) = V (Proc.devRef .tc main_arg1) := by
  after_results_simp
theorem keepB1_arg2 (V : Valuation τ sig (Elt F)) :
    after opsB1 V (Proc.devRef .tc main_arg2) = V (Proc.devRef .tc main_arg2) := by
  after_results_simp
theorem keepB1_arg3 (V : Valuation τ sig (Elt F)) :
    after opsB1 V (Proc.devRef .tc main_arg3) = V (Proc.devRef .tc main_arg3) := by
  after_results_simp
theorem keepB2_v11 (V : Valuation τ sig (Elt F)) :
    after opsB2 V (Proc.devRef .tc main_v11) = V (Proc.devRef .tc main_v11) := by
  after_results_simp
theorem keepB2_v23 (V : Valuation τ sig (Elt F)) :
    after opsB2 V (Proc.devRef .tc main_v23) = V (Proc.devRef .tc main_v23) := by
  after_results_simp
theorem keepB2_v34 (V : Valuation τ sig (Elt F)) :
    after opsB2 V (Proc.devRef .tc main_v34) = V (Proc.devRef .tc main_v34) := by
  after_results_simp
theorem keepB2_arg0 (V : Valuation τ sig (Elt F)) :
    after opsB2 V (Proc.devRef .tc main_arg0) = V (Proc.devRef .tc main_arg0) := by
  after_results_simp
theorem keepB2_arg1 (V : Valuation τ sig (Elt F)) :
    after opsB2 V (Proc.devRef .tc main_arg1) = V (Proc.devRef .tc main_arg1) := by
  after_results_simp
theorem keepB2_arg2 (V : Valuation τ sig (Elt F)) :
    after opsB2 V (Proc.devRef .tc main_arg2) = V (Proc.devRef .tc main_arg2) := by
  after_results_simp
theorem keepB2_arg3 (V : Valuation τ sig (Elt F)) :
    after opsB2 V (Proc.devRef .tc main_arg3) = V (Proc.devRef .tc main_arg3) := by
  after_results_simp
theorem keepB3_v11 (V : Valuation τ sig (Elt F)) :
    after opsB3 V (Proc.devRef .tc main_v11) = V (Proc.devRef .tc main_v11) := by
  after_results_simp
theorem keepB3_v23 (V : Valuation τ sig (Elt F)) :
    after opsB3 V (Proc.devRef .tc main_v23) = V (Proc.devRef .tc main_v23) := by
  after_results_simp
theorem keepB3_v35 (V : Valuation τ sig (Elt F)) :
    after opsB3 V (Proc.devRef .tc main_v35) = V (Proc.devRef .tc main_v35) := by
  after_results_simp
theorem keepB3_arg0 (V : Valuation τ sig (Elt F)) :
    after opsB3 V (Proc.devRef .tc main_arg0) = V (Proc.devRef .tc main_arg0) := by
  after_results_simp
theorem keepB3_arg1 (V : Valuation τ sig (Elt F)) :
    after opsB3 V (Proc.devRef .tc main_arg1) = V (Proc.devRef .tc main_arg1) := by
  after_results_simp
theorem keepB3_arg2 (V : Valuation τ sig (Elt F)) :
    after opsB3 V (Proc.devRef .tc main_arg2) = V (Proc.devRef .tc main_arg2) := by
  after_results_simp
theorem keepB3_arg3 (V : Valuation τ sig (Elt F)) :
    after opsB3 V (Proc.devRef .tc main_arg3) = V (Proc.devRef .tc main_arg3) := by
  after_results_simp

/-! ## The whole line -/

theorem faceLogAddress_stage (x : (⟨S8192x256, .f32⟩ : BufTy).Contents (Elt F)) (y : (⟨S4096x256, .f32⟩ : BufTy).Contents (Elt F)) :
    logSoftmaxOf (val_main_v34 (F := F) x y) = val_main_v35 (F := F) x y := rfl

theorem speechRecall_stage (x : (⟨S8192x256, .f32⟩ : BufTy).Contents (Elt F)) (y : (⟨S4096x256, .f32⟩ : BufTy).Contents (Elt F)) :
    Host.dotGeneral (φ₁ := .f32) (φ₂ := .f32) dot_S8192x4096_S4096x256_S8192x256_1_0_0_1_n_n none
        (softmaxOf (val_main_v10 (F := F) x y)) y = val_main_v23 (F := F) x y := rfl

theorem faceRecall_stage (x : (⟨S8192x256, .f32⟩ : BufTy).Contents (Elt F)) (y w : (⟨S4096x256, .f32⟩ : BufTy).Contents (Elt F)) :
    Host.dotGeneral (φ₁ := .f32) (φ₂ := .f32) dot_S8192x4096_S4096x256_S8192x256_1_0_0_1_n_n none
        (softmaxOf (val_main_v34 (F := F) x y)) w = val_main_v47 (F := F) x w y := rfl

theorem result_v11 (V : Valuation τ sig (Elt F)) :
    after ops V (Proc.devRef .tc main_v11)
      = val_main_v11 (F := F) (V (Proc.devRef .tc main_arg1)) (V (Proc.devRef .tc main_arg2)) := by
  rw [ops_split, after_append, after_append, after_append, after_append, after_append,
    keepB3_v11, keepB2_v11, keepB1_v11, keepA3_v11, stageA2, stageA1, logAddress_stage]

theorem result_v23 (V : Valuation τ sig (Elt F)) :
    after ops V (Proc.devRef .tc main_v23)
      = val_main_v23 (F := F) (V (Proc.devRef .tc main_arg1)) (V (Proc.devRef .tc main_arg2)) := by
  rw [ops_split, after_append, after_append, after_append, after_append, after_append,
    keepB3_v23, keepB2_v23, keepB1_v23, stageA3, keepA2_v10, stageA1, keepA2_arg2, keepA1_arg2,
    speechRecall_stage]

theorem result_v35 (V : Valuation τ sig (Elt F)) :
    after ops V (Proc.devRef .tc main_v35)
      = val_main_v35 (F := F) (V (Proc.devRef .tc main_arg0)) (V (Proc.devRef .tc main_arg3)) := by
  rw [ops_split, after_append, after_append, after_append, after_append, after_append,
    keepB3_v35, stageB2, stageB1, keepA3_arg0, keepA2_arg0, keepA1_arg0, keepA3_arg3, keepA2_arg3, keepA1_arg3,
    faceLogAddress_stage]

theorem result_v47 (V : Valuation τ sig (Elt F)) :
    after ops V (Proc.devRef .tc main_v47)
      = val_main_v47 (F := F) (V (Proc.devRef .tc main_arg0)) (V (Proc.devRef .tc main_arg2)) (V (Proc.devRef .tc main_arg3)) := by
  rw [ops_split, after_append, after_append, after_append, after_append, after_append,
    stageB3, keepB2_v34, stageB1, keepB2_arg2, keepB1_arg2, keepA3_arg0, keepA2_arg0, keepA1_arg0,
    keepA3_arg3, keepA2_arg3, keepA1_arg3, keepA3_arg2, keepA2_arg2, keepA1_arg2, faceRecall_stage]

theorem result_arg0 (V : Valuation τ sig (Elt F)) :
    after ops V (Proc.devRef .tc main_arg0) = V (Proc.devRef .tc main_arg0) := by
  rw [ops_split, after_append, after_append, after_append, after_append, after_append,
    keepB3_arg0, keepB2_arg0, keepB1_arg0, keepA3_arg0, keepA2_arg0, keepA1_arg0]

theorem result_arg1 (V : Valuation τ sig (Elt F)) :
    after ops V (Proc.devRef .tc main_arg1) = V (Proc.devRef .tc main_arg1) := by
  rw [ops_split, after_append, after_append, after_append, after_append, after_append,
    keepB3_arg1, keepB2_arg1, keepB1_arg1, keepA3_arg1, keepA2_arg1, keepA1_arg1]

theorem result_arg2 (V : Valuation τ sig (Elt F)) :
    after ops V (Proc.devRef .tc main_arg2) = V (Proc.devRef .tc main_arg2) := by
  rw [ops_split, after_append, after_append, after_append, after_append, after_append,
    keepB3_arg2, keepB2_arg2, keepB1_arg2, keepA3_arg2, keepA2_arg2, keepA1_arg2]

theorem result_arg3 (V : Valuation τ sig (Elt F)) :
    after ops V (Proc.devRef .tc main_arg3) = V (Proc.devRef .tc main_arg3) := by
  rw [ops_split, after_append, after_append, after_append, after_append, after_append,
    keepB3_arg3, keepB2_arg3, keepB1_arg3, keepA3_arg3, keepA2_arg3, keepA1_arg3]

/-- The reference's run: every weakly fair execution terminates with the four computed results at their stages of
    the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = val_main_v23 (F := F) (m ((c.tc : Thread nD τ).loc main_arg1)) (m ((c.tc : Thread nD τ).loc main_arg2))
      ∧ r.2.mem ((c.tc : Thread nD τ).loc main_v47)
        = val_main_v47 (F := F) (m ((c.tc : Thread nD τ).loc main_arg0)) (m ((c.tc : Thread nD τ).loc main_arg2)) (m ((c.tc : Thread nD τ).loc main_arg3))
      ∧ r.2.mem ((c.tc : Thread nD τ).loc main_v11)
        = val_main_v11 (F := F) (m ((c.tc : Thread nD τ).loc main_arg1)) (m ((c.tc : Thread nD τ).loc main_arg2))
      ∧ r.2.mem ((c.tc : Thread nD τ).loc main_v35)
        = val_main_v35 (F := F) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v23).trans (result_v23 (launchContents m c)), (h c main_v47).trans (result_v47 (launchContents m c)),
      (h c main_v11).trans (result_v11 (launchContents m c)), (h c main_v35).trans (result_v35 (launchContents m c)),
      (h c main_arg0).trans (result_arg0 (launchContents m c)), (h c main_arg1).trans (result_arg1 (launchContents m c)),
      (h c main_arg2).trans (result_arg2 (launchContents m c)), (h c main_arg3).trans (result_arg3 (launchContents m c))⟩)
    (run_seq scopedRefs_eq scopedSems_eq defs main (fun _ => ops) main_eq (fun _ => ops_sub) m ρ)

end Cert.ReferenceIdeal.StagedRun

end
-- ==== Proof.CosineRecall.lean ====
/-
  Cosine-similarity memory addressing and recall, on the extended reals.

  A query row `e` of length `C` is scored against the `S` rows of a memory `mem`: the score of row `q` is the inner
  product `Σ_j e_j · mem_{q,j}` divided by `max (‖e‖ · nrm_q, ε)`, where `‖e‖ = √(Σ_j e_j²)`, `nrm` holds the norms of the
  memory's rows and `ε` is the binary32 number nearest `1e-8`.  The scores of one query are made into address weights by
  the shifted softmax: with `m` the largest score (the fold of `max` from `−∞`), the weight of row `q` is
  `exp (score_q − m)`, the mass is the sum of the weights, the logarithmic address is `(score_q − m) − log mass`, the
  address is `weight_q / mass`, and the recalled row is the address-weighted sum `Σ_s address_s · val_{s,c}` of the rows
  of a value memory.  Everything is a function of ONE query row, so an array of queries is processed row by row and any
  tiling of the rows computes the same entries.
-/
import Idealize.ShloMosaic.PureOps.Ideal
import Idealize.ShloMosaic.Lib.ValueIdx

noncomputable section

namespace Cert.CosineRecall

open Idealize.ShloMosaic Idealize.ShloMosaic.ValueIdx

variable {C S D : ℕ}

/-- The cosine score of query row `e` against memory row `q`, its denominator floored at `ε`. -/
def score (e : Fin C → EReal) (mem : Fin S → Fin C → EReal) (nrm : Fin S → EReal) (q : Fin S) : EReal :=
  Ideal.div (∑ j : Fin C, e j * mem q j)
    (max (Ideal.sqrt (∑ j : Fin C, e j * e j) * nrm q) (Ideal.ofBits .f32 0x322BCC77#32))

/-- The largest score of the query: the fold of `max` from `−∞` over the memory rows. -/
def top (e : Fin C → EReal) (mem : Fin S → Fin C → EReal) (nrm : Fin S → EReal) : EReal :=
  (Finset.univ : Finset (Fin S)).fold max ⊥ (fun k => score e mem nrm k)

/-- The unnormalised address weight of memory row `q`. -/
def weight (e : Fin C → EReal) (mem : Fin S → Fin C → EReal) (nrm : Fin S → EReal) (q : Fin S) : EReal :=
  Ideal.exp (score e mem nrm q - top e mem nrm)

/-- The sum of the weights. -/
def mass (e : Fin C → EReal) (mem : Fin S → Fin C → EReal) (nrm : Fin S → EReal) : EReal :=
  ∑ k : Fin S, weight e mem nrm k

/-- The logarithm of the softmax address of memory row `q`. -/
def logAddress (e : Fin C → EReal) (mem : Fin S → Fin C → EReal) (nrm : Fin S → EReal) (q : Fin S) : EReal :=
  (score e mem nrm q - top e mem nrm) - Ideal.log (mass e mem nrm)

/-- The recalled row: the address-weighted sum of the value memory's rows, at column `c`. -/
def recall (e : Fin C → EReal) (mem : Fin S → Fin C → EReal) (nrm : Fin S → EReal) (val : Fin S → Fin D → EReal)
    (c : Fin D) : EReal :=
  ∑ s : Fin S, Ideal.div (weight e mem nrm s) (mass e mem nrm) * val s c

/-- The Euclidean norm of row `q` of a memory. -/
def rowNorm (mem : Fin S → Fin C → EReal) (q : Fin S) : EReal :=
  Ideal.sqrt (∑ j : Fin C, mem q j * mem q j)

/-- An `[a, b]` array as a function of its two coordinates. -/
abbrev mat {a b : ℕ} (v : (⟨2, ![a, b]⟩ : Shape).Idx → EReal) : Fin a → Fin b → EReal := fun p c => v (ix2 p c)

/-- The logarithmic addresses of all `N` queries of `emb` against the memory `mem`, as an `[N, S]` array. -/
def logAddressArr {N : ℕ} (emb : (⟨2, ![N, C]⟩ : Shape).Idx → EReal) (mem : (⟨2, ![S, C]⟩ : Shape).Idx → EReal) :
    (⟨2, ![N, S]⟩ : Shape).Idx → EReal :=
  fun i => logAddress (mat emb (i 0)) (mat mem) (rowNorm (mat mem)) (i 1)

/-- The rows recalled from the value memory `val` for all `N` queries of `emb` addressed through `mem`, as an
    `[N, D]` array. -/
def recallArr {N : ℕ} (emb : (⟨2, ![N, C]⟩ : Shape).Idx → EReal) (mem : (⟨2, ![S, C]⟩ : Shape).Idx → EReal)
    (val : (⟨2, ![S, D]⟩ : Shape).Idx → EReal) : (⟨2, ![N, D]⟩ : Shape).Idx → EReal :=
  fun i => recall (mat emb (i 0)) (mat mem) (rowNorm (mat mem)) (mat val) (i 1)

end Cert.CosineRecall

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibLogSoftmaxRow.lean ====
/-
  A row-wise log-softmax read at an entry, on the extended reals.

  For an `[a, b]` array `z` the computation "subtract the row's largest entry, exponentiate, sum the row, take the
  logarithm, subtract" — the two row reductions kept as `[a, 1]` columns and broadcast back over the lanes — is, at
  entry `(p, c)`, `(z (p, c) − m) − log (Σ_k exp (z (p, k) − m))` with `m` the fold of `max` from `−∞` over row `p`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LogSoftmaxRow

open Idealize.ShloMosaic Idealize.ShloMosaic.ValueIdx

variable {a b : ℕ}

/-- The largest entry of row `p`: the fold of `max` from `−∞`. -/
def rowTop (z : FVec Ideal ⟨2, ![a, b]⟩ .f32) (p : Fin a) : EReal :=
  (Finset.univ : Finset (Fin b)).fold max ⊥ (fun k => z (ix2 p k))

/-- The binary32 word of `−∞` denotes `⊥`. -/
theorem ofBits_neg_inf : Ideal.ofBits .f32 0xFF800000#32 = (⊥ : EReal) := by
  simp [Ideal.ofBits, Ideal.ieee]

/-- The lane maximum from `−∞`, kept as a column and broadcast back, reads at `(p, c)` the row's largest entry. -/
theorem top_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0xFF800000#32 : BitVec 32) = FKind.maximumf.neutral .f32 (.inl rfl)) (p : Fin a) (c : Fin b) :
    broadcastTo ⟨2, ![a, b]⟩ (shapeCast ⟨2, ![a, 1]⟩ (multiReduction .maximumf [1] ⟨1, ![a]⟩ z 0xFF800000#32 hred (.inl rfl) hacc) hc) hb (ix2 p c)
      = rowTop z p := by
  have e1 : broadcastTo ⟨2, ![a, b]⟩ (shapeCast ⟨2, ![a, 1]⟩ (multiReduction .maximumf [1] ⟨1, ![a]⟩ z 0xFF800000#32 hred (.inl rfl) hacc) hc) hb (ix2 p c)
      = shapeCast ⟨2, ![a, 1]⟩ (multiReduction .maximumf [1] ⟨1, ![a]⟩ z 0xFF800000#32 hred (.inl rfl) hacc) hc (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .maximumf [1] ⟨1, ![a]⟩ z 0xFF800000#32 hred (.inl rfl) hacc) hc (ix2 p (0 : Fin 1))
      = multiReduction .maximumf [1] ⟨1, ![a]⟩ z 0xFF800000#32 hred (.inl rfl) hacc (ix1 p) :=
    shapeCast_apply _ hc _ _ (by
      rw [Shape.rowMajor_val_two, Shape.rowMajor_val_one]
      show p.val = p.val * 1 + 0
      omega)
  rw [e1, e2]
  refine (Ideal.multiReduction_maximumf_single z 0xFF800000#32 hred (.inl rfl) hacc (ix1 p)).trans ?_
  rw [show (FloatOps.ofBits (F := Ideal) .f32 0xFF800000#32 : EReal) = ⊥ from ofBits_neg_inf]
  unfold rowTop
  refine congrArg (fun f => (Finset.univ : Finset (Fin b)).fold max ⊥ f) (funext fun k => ?_)
  exact congrArg z (funext fun ax => Fin.ext (by
    match ax with
    | ⟨0, _⟩ => rfl
    | ⟨1, _⟩ => rfl))

/-- The lane sum into zero of an array `w`, kept as a column, its logarithm broadcast back, reads at `(p, c)` the
    logarithm of row `p`'s sum. -/
theorem logSum_apply (w : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0x00000000#32 : BitVec 32) = 0x00000000#32) (p : Fin a) (c : Fin b) :
    broadcastTo ⟨2, ![a, b]⟩ (log (shapeCast ⟨2, ![a, 1]⟩ (multiReduction .add [1] ⟨1, ![a]⟩ w 0x00000000#32 hred (.inl rfl) hacc) hc)) hb (ix2 p c)
      = Ideal.log (∑ k : Fin b, w (ix2 p k)) := by
  have e1 : broadcastTo ⟨2, ![a, b]⟩ (log (shapeCast ⟨2, ![a, 1]⟩ (multiReduction .add [1] ⟨1, ![a]⟩ w 0x00000000#32 hred (.inl rfl) hacc) hc)) hb (ix2 p c)
      = log (shapeCast ⟨2, ![a, 1]⟩ (multiReduction .add [1] ⟨1, ![a]⟩ w 0x00000000#32 hred (.inl rfl) hacc) hc) (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .add [1] ⟨1, ![a]⟩ w 0x00000000#32 hred (.inl rfl) hacc) hc (ix2 p (0 : Fin 1))
      = multiReduction .add [1] ⟨1, ![a]⟩ w 0x00000000#32 hred (.inl rfl) hacc (ix1 p) :=
    shapeCast_apply _ hc _ _ (by
      rw [Shape.rowMajor_val_two, Shape.rowMajor_val_one]
      show p.val = p.val * 1 + 0
      omega)
  rw [e1]
  show Ideal.log (shapeCast ⟨2, ![a, 1]⟩ (multiReduction .add [1] ⟨1, ![a]⟩ w 0x00000000#32 hred (.inl rfl) hacc) hc (ix2 p (0 : Fin 1))) = _
  rw [e2]
  refine congrArg Ideal.log ?_
  refine (Ideal.multiReduction_add_single w 0x00000000#32 hred (.inl rfl) hacc (ix1 p)).trans ?_
  exact Finset.sum_congr rfl fun k _ => congrArg w (funext fun ax => Fin.ext (by
    match ax with
    | ⟨0, _⟩ => rfl
    | ⟨1, _⟩ => rfl))

/-- The whole row-wise log-softmax at entry `(p, c)`. -/
theorem logSoftmax_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc1 : (0xFF800000#32 : BitVec 32) = FKind.maximumf.neutral .f32 (.inl rfl))
    (hacc2 : (0x00000000#32 : BitVec 32) = 0x00000000#32) (p : Fin a) (c : Fin b) :
    subf (subf z (broadcastTo ⟨2, ![a, b]⟩ (shapeCast ⟨2, ![a, 1]⟩ (multiReduction .maximumf [1] ⟨1, ![a]⟩ z 0xFF800000#32 hred (.inl rfl) hacc1) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z 0xFF800000#32 hred (.inl rfl) hacc1) hc) hb)))
          0x00000000#32 hred (.inl rfl) hacc2) hc)) hb) (ix2 p c)
      = (z (ix2 p c) - rowTop z p) - Ideal.log (∑ k : Fin b, Ideal.exp (z (ix2 p k) - rowTop z p)) := by
  rw [subf_apply, subf_apply, top_apply z hred hc hb hacc1 p c, logSum_apply _ hred hc hb hacc2 p c]
  refine congrArg (fun s => (z (ix2 p c) - rowTop z p) - Ideal.log s) (Finset.sum_congr rfl fun k _ => ?_)
  show Ideal.exp (subf z _ (ix2 p k)) = _
  rw [subf_apply, top_apply z hred hc hb hacc1 p k]

end Idealize.ShloMosaic.LogSoftmaxRow

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.Tile.lean ====
/-
  One tile of queries through the kernel's arithmetic, read at an entry.

  A grid point holds a tile of 256 query rows `e`, the whole memory `mem` (4096 rows), the row of the memory rows'
  norms `nrm` and the whole value memory `v`.  Its arithmetic is: the inner products of the queries with the memory
  rows (a matrix product contracting the second axis of both), the queries' squared norms (a lane sum), the cosine
  scores with the floored denominator, the row maximum, the shifted scores, their exponentials, the row sums, and from
  these the logarithmic addresses and — by a second matrix product with the value memory — the recalled rows.  Read at
  entry `(p, q)` each of these is the one-query function of CosineRecall.lean at the tile's row `p`.
-/
import proofs.«151269_j75428215652524_1_alg».proof.Proof.Gen.KernelIdeal.Skeleton
import proofs.«151269_j75428215652524_1_alg».proof.Proof.CosineRecall
import proofs.«151269_j75428215652524_1_alg».proof.Proof.LibKeepdims
import proofs.«151269_j75428215652524_1_alg».proof.Proof.LibRowOps
import proofs.«151269_j75428215652524_1_alg».proof.Proof.LibPlainDot
import proofs.«151269_j75428215652524_1_alg».proof.Proof.LibLogSoftmaxRow
import proofs.«151269_j75428215652524_1_alg».proof.Proof.LibRowBroadcast
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.CosineRecall
open Idealize.ShloMosaic.LogSoftmaxRow (rowTop)

/-- The scores of a tile from their three ingredients: the inner products `num`, the queries' squared norms `sq`
    and the row `nrm` of the memory rows' norms. -/
def scores (num : FVec Ideal S256x4096 .f32) (sq : FVec Ideal S256 .f32) (nrm : Vec Ideal S1x4096 .f32) :
    FVec Ideal S256x4096 .f32 :=
  divf num (maximumf (mulf (broadcastTo S256x4096 (sqrt (shapeCast S256x1 sq shapeCasts_S256_S256x1)) broadcasts_S256x1_S256x4096)
      (broadcastTo S256x4096 (shapeCast S1x4096 nrm shapeCasts_S1x4096_S1x4096) broadcasts_S1x4096_S256x4096))
    (broadcast S256x4096 (Scalar.ofBits .f32 0x322BCC77#32)))

/-- The score at `(p, k)`: the inner product over `max (√sq_p · nrm_k, ε)`. -/
theorem scores_apply (num : FVec Ideal S256x4096 .f32) (sq : FVec Ideal S256 .f32) (nrm : Vec Ideal S1x4096 .f32)
    (p : Fin 256) (k : Fin 4096) :
    scores num sq nrm (ix2 p k)
      = Ideal.div (num (ix2 p k))
          (max (Ideal.sqrt (sq (ix1 p)) * nrm (ix2 (0 : Fin 1) k)) (Ideal.ofBits .f32 0x322BCC77#32)) := by
  unfold scores
  rw [divf_apply, maximumf_apply, mulf_apply, Keepdims.broadcastTo_a1_ab_apply, RowBroadcast.broadcastTo_row_apply,
    shapeCast_self, broadcast_apply]
  show Ideal.div _ (max (Ideal.sqrt (shapeCast S256x1 sq shapeCasts_S256_S256x1 (ix2 p (0 : Fin 1))) * _) _) = _
  rw [Keepdims.shapeCast_a_a1_apply]
  rfl

/-- The shifted scores are the scores minus their row's largest (by unfolding). -/
theorem shifted_eq (num : FVec Ideal S256x4096 .f32) (sq : FVec Ideal S256 .f32) (nrm : Vec Ideal S1x4096 .f32) :
    k0_pay1 num sq nrm
      = subf (scores num sq nrm) (broadcastTo S256x4096 (shapeCast S256x1 (multiReduction .maximumf [1] S256
          (scores num sq nrm) 0xFF800000#32 reduces_S256x4096_S256 (.inl rfl) rfl) shapeCasts_S256_S256x1)
          broadcasts_S256x1_S256x4096) := rfl

theorem shifted_apply (num : FVec Ideal S256x4096 .f32) (sq : FVec Ideal S256 .f32) (nrm : Vec Ideal S1x4096 .f32)
    (p : Fin 256) (k : Fin 4096) :
    k0_pay1 num sq nrm (ix2 p k) = scores num sq nrm (ix2 p k) - rowTop (scores num sq nrm) p := by
  rw [shifted_eq, subf_apply]
  exact congrArg (fun x => scores num sq nrm (ix2 p k) - x)
    (LogSoftmaxRow.top_apply (scores num sq nrm) reduces_S256x4096_S256 shapeCasts_S256_S256x1
      broadcasts_S256x1_S256x4096 rfl p k)

/-- The logarithmic addresses of a tile at `(p, c)`. -/
theorem logAddr_apply (num : FVec Ideal S256x4096 .f32) (sq : FVec Ideal S256 .f32) (nrm : Vec Ideal S1x4096 .f32)
    (p : Fin 256) (c : Fin 4096) :
    k0_pay4 num sq nrm (ix2 p c)
      = (scores num sq nrm (ix2 p c) - rowTop (scores num sq nrm) p)
        - Ideal.log (∑ k : Fin 4096, Ideal.exp (scores num sq nrm (ix2 p k) - rowTop (scores num sq nrm) p)) :=
  LogSoftmaxRow.logSoftmax_apply (scores num sq nrm) reduces_S256x4096_S256 shapeCasts_S256_S256x1
    broadcasts_S256x1_S256x4096 rfl rfl p c

/-- The row sums of the exponentials, kept as a column, at `(p, u)`. -/
theorem mass_apply (num : FVec Ideal S256x4096 .f32) (sq : FVec Ideal S256 .f32) (nrm : Vec Ideal S1x4096 .f32)
    (p : Fin 256) (u : Fin 1) :
    k0_pay3 num sq nrm (ix2 p u)
      = ∑ k : Fin 4096, Ideal.exp (scores num sq nrm (ix2 p k) - rowTop (scores num sq nrm) p) := by
  unfold k0_pay3
  refine (Keepdims.shapeCast_a_a1_apply _ shapeCasts_S256_S256x1 p u).trans ?_
  refine (Keepdims.rowSum_apply (k0_pay2 num sq nrm) reduces_S256x4096_S256 rfl p).trans ?_
  refine Finset.sum_congr rfl fun k _ => ?_
  show Ideal.exp (k0_pay1 num sq nrm (ix2 p k)) = _
  rw [shifted_apply]

/-- The dimension record of the recall product: the address matrix's second axis against the value memory's first. -/
theorem recallDims_l0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl

theorem recallDims_r1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

/-- The recalled rows of a tile at `(p, c)`: the weights over their mass against the value memory's column. -/
theorem recall_apply (v : Vec Ideal S4096x256 .f32) (num : FVec Ideal S256x4096 .f32) (sq : FVec Ideal S256 .f32)
    (nrm : Vec Ideal S1x4096 .f32) (p : Fin 256) (c : Fin 256) :
    k0_pay5 v num sq nrm (ix2 p c)
      = ∑ s : Fin 4096, Ideal.div (Ideal.exp (scores num sq nrm (ix2 p s) - rowTop (scores num sq nrm) p))
          (∑ k : Fin 4096, Ideal.exp (scores num sq nrm (ix2 p k) - rowTop (scores num sq nrm) p)) * v (ix2 s c) := by
  unfold k0_pay5
  refine (PlainDot.matmul_zero_apply dot_S256x4096_S4096x256_S256x256_1_0_0_1_n_n none rfl rfl recallDims_l0
    (fun i q => dot_S256x4096_S4096x256_S256x256_1_0_0_1_n_n.lhsIdx_val_of_single rfl i q)
    (fun i q => dot_S256x4096_S4096x256_S256x256_1_0_0_1_n_n.rhsIdx_val_of_single rfl i q) recallDims_r1
    (divf (k0_pay2 num sq nrm) (broadcastTo S256x4096 (k0_pay3 num sq nrm) broadcasts_S256x1_S256x4096)) v p c).trans ?_
  refine Finset.sum_congr rfl fun s _ => ?_
  refine congrArg (fun x => x * v (ix2 s c)) ?_
  rw [divf_apply, Keepdims.broadcastTo_a1_ab_apply, mass_apply]
  show Ideal.div (Ideal.exp (k0_pay1 num sq nrm (ix2 p s))) _ = _
  rw [shifted_apply]

/-- The dimension record of the score product: both operands' second axes contracted. -/
theorem scoreDims_l0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide),
    dif_pos (show (0 : Fin S256x256.rank) ∈ dot_S256x256_S4096x256_S256x4096_1_1_0_0_n_n.lhsNonContracting by decide)]
  rfl

theorem scoreDims_r0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide),
    dif_pos (show (0 : Fin S4096x256.rank) ∈ dot_S256x256_S4096x256_S256x4096_1_1_0_0_n_n.rhsNonContracting by decide)]
  rfl

/-- The inner product of query `p` with memory row `k`. -/
theorem num_apply (e : Vec Ideal S256x256 .f32) (mem : Vec Ideal S4096x256 .f32) (p : Fin 256) (k : Fin 4096) :
    k0_pay11 e mem (ix2 p k) = ∑ j : Fin 256, e (ix2 p j) * mem (ix2 k j) := by
  unfold k0_pay11
  exact RowOps.matmulT_zero_apply dot_S256x256_S4096x256_S256x4096_1_1_0_0_n_n none rfl rfl scoreDims_l0
    (fun i q => dot_S256x256_S4096x256_S256x4096_1_1_0_0_n_n.lhsIdx_val_of_single rfl i q) scoreDims_r0
    (fun i q => dot_S256x256_S4096x256_S256x4096_1_1_0_0_n_n.rhsIdx_val_of_single rfl i q) e mem p k

/-- The squared norm of query `p`. -/
theorem sq_apply (e : Vec Ideal S256x256 .f32) (p : Fin 256) :
    k0_pay12 e (ix1 p) = ∑ j : Fin 256, e (ix2 p j) * e (ix2 p j) := by
  unfold k0_pay12
  exact Keepdims.rowSum_apply (mulf e e) reduces_S256x256_S256 rfl p

section OneQuery

variable (e : Vec Ideal S256x256 .f32) (mem : Vec Ideal S4096x256 .f32) (nrm : Vec Ideal S1x4096 .f32)

/-- The row of norms as a function of the memory row. -/
abbrev nrmRow (nrm : Vec Ideal S1x4096 .f32) : Fin 4096 → EReal := fun s => nrm (ix2 (0 : Fin 1) s)

/-- Query `p` of the tile as a function of its coordinate. -/
abbrev query (e : Vec Ideal S256x256 .f32) (p : Fin 256) : Fin 256 → EReal := fun j => e (ix2 p j)

/-- The memory as a function of row and coordinate. -/
abbrev rows (mem : Vec Ideal S4096x256 .f32) : Fin 4096 → Fin 256 → EReal := fun s j => mem (ix2 s j)

theorem score_eq (p : Fin 256) (k : Fin 4096) :
    scores (k0_pay11 e mem) (k0_pay12 e) nrm (ix2 p k) = score (query e p) (rows mem) (nrmRow nrm) k := by
  rw [scores_apply, num_apply, sq_apply]
  rfl

theorem top_eq (p : Fin 256) :
    rowTop (scores (k0_pay11 e mem) (k0_pay12 e) nrm) p = top (query e p) (rows mem) (nrmRow nrm) := by
  unfold LogSoftmaxRow.rowTop CosineRecall.top
  exact congrArg (fun f => (Finset.univ : Finset (Fin 4096)).fold max ⊥ f) (funext fun k => score_eq e mem nrm p k)

theorem weight_eq (p : Fin 256) (k : Fin 4096) :
    Ideal.exp (scores (k0_pay11 e mem) (k0_pay12 e) nrm (ix2 p k) - rowTop (scores (k0_pay11 e mem) (k0_pay12 e) nrm) p)
      = weight (query e p) (rows mem) (nrmRow nrm) k := by
  rw [score_eq, top_eq]
  rfl

theorem mass_eq (p : Fin 256) :
    (∑ k : Fin 4096, Ideal.exp (scores (k0_pay11 e mem) (k0_pay12 e) nrm (ix2 p k)
        - rowTop (scores (k0_pay11 e mem) (k0_pay12 e) nrm) p))
      = mass (query e p) (rows mem) (nrmRow nrm) :=
  Finset.sum_congr rfl fun k _ => weight_eq e mem nrm p k

/-- The logarithmic address the tile's arithmetic leaves at `(p, c)` is the one-query function at the tile's row `p`. -/
theorem logAddress_eq (p : Fin 256) (c : Fin 4096) :
    k0_pay4 (k0_pay11 e mem) (k0_pay12 e) nrm (ix2 p c) = logAddress (query e p) (rows mem) (nrmRow nrm) c := by
  rw [logAddr_apply, mass_eq, score_eq, top_eq]
  rfl

/-- The recalled entry the tile's arithmetic leaves at `(p, c)` is the one-query function at the tile's row `p`. -/
theorem recall_eq (v : Vec Ideal S4096x256 .f32) (p : Fin 256) (c : Fin 256) :
    k0_pay5 v (k0_pay11 e mem) (k0_pay12 e) nrm (ix2 p c)
      = recall (query e p) (rows mem) (nrmRow nrm) (fun s d => v (ix2 s d)) c := by
  rw [recall_apply, mass_eq]
  unfold CosineRecall.recall
  exact Finset.sum_congr rfl fun s _ => by rw [weight_eq]

/-- The other pathway's payloads are the same functions of its own loads (by unfolding). -/
theorem logAddress_eq' (p : Fin 256) (c : Fin 4096) :
    k0_pay9 e mem nrm (ix2 p c) = logAddress (query e p) (rows mem) (nrmRow nrm) c :=
  logAddress_eq e mem nrm p c

theorem recall_eq' (p : Fin 256) (c : Fin 256) :
    k0_pay10 e mem nrm (ix2 p c) = recall (query e p) (rows mem) (nrmRow nrm) (fun s d => mem (ix2 s d)) c :=
  recall_eq e mem nrm mem p c

end OneQuery

end Cert.KernelIdeal.Tile

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.HostNorm.lean ====
/-
  The rows of memory norms the kernel's program prepares before its grid.

  Before the grid is entered the program computes, for each of the two memories, the Euclidean norm of every row
  (square, sum over the row from zero, square root) and lays the 4096 norms out as a `[1, 4096]` row.  Read at entry
  `(0, q)` that row is the norm of memory row `q`.
-/
import proofs.«151269_j75428215652524_1_alg».proof.Proof.Gen.KernelIdeal.Frame
import proofs.«151269_j75428215652524_1_alg».proof.Proof.CosineRecall
import proofs.«151269_j75428215652524_1_alg».proof.Proof.LibHostKeepdims
import proofs.«151269_j75428215652524_1_alg».proof.Proof.LibRowBroadcast
import Idealize.ShloMosaic.Lib.StableHlo.Run
import Idealize.ShloMosaic.Lib.ValueIdx

noncomputable section

namespace Cert.KernelIdeal.HostNorm

open Cert.KernelIdeal Cert.KernelIdeal.Gen Idealize.ShloMosaic Idealize.ShloMosaic.ValueIdx Idealize.ShloMosaic.TcCoe
open Idealize.SL.Sem Idealize.ShloMosaic.StableHlo Cert.CosineRecall

/-- The row of row norms of a memory, as the program's host operations spell it. -/
def normRow (x : FVec Ideal S4096x256 .f32) : FVec Ideal S1x4096 .f32 :=
  broadcastInDim S1x4096 ![1] bcast_S4096_S1x4096_1
    (Host.sqrt (Host.reduceAdd (mulf x x) (constant (F := Ideal) S_ .f32 0x00000000#32) reducesTo_S4096x256_S4096_d1 h_S_))

/-- Entry `(0, q)` of the row is the norm of memory row `q`. -/
theorem normRow_apply (x : FVec Ideal S4096x256 .f32) (z : Fin 1) (q : Fin 4096) :
    normRow x (ix2 z q) = rowNorm (mat x) q := by
  unfold normRow
  rw [RowBroadcast.broadcastInDim_flat_apply (![1] : Fin 1 → Fin 2) rfl bcast_S4096_S1x4096_1 _ z q]
  show Ideal.sqrt (Host.reduceAdd (mulf x x) (constant (F := Ideal) S_ .f32 0x00000000#32) reducesTo_S4096x256_S4096_d1 h_S_ (ix1 q)) = _
  rw [HostKeepdims.hostRowSum_apply (mulf x x) reducesTo_S4096x256_S4096_d1 (by decide) h_S_ q]
  rfl

variable (m : (ℓ : Loc nD τ sig) → Buf (Elt Ideal) ℓ)

/-- When the grid is entered, the buffer the sixth window stages holds the row of norms of the value memory. -/
theorem V_main_v1 (c : Dev nD) :
    (V m c main_v1 : S1x4096.Idx → EReal) = normRow (m ((c : Thread nD τ).loc main_arg2)) := by
  dsimp only [Gen.V]
  simp only [Gen.hostOps0, Gen.hostOps0_1, Gen.hostOps0_2, Gen.hostOps0_3, List.flatten_cons, List.flatten_nil,
    List.append_nil, List.cons_append, List.nil_append]
  after_results
  rfl

/-- When the grid is entered, the buffer the fifth window stages holds the row of norms of the key memory. -/
theorem V_main_v3 (c : Dev nD) :
    (V m c main_v3 : S1x4096.Idx → EReal) = normRow (m ((c : Thread nD τ).loc main_arg3)) := by
  dsimp only [Gen.V]
  simp only [Gen.hostOps0, Gen.hostOps0_1, Gen.hostOps0_2, Gen.hostOps0_3, List.flatten_cons, List.flatten_nil,
    List.append_nil, List.cons_append, List.nil_append]
  after_results
  rfl

end Cert.KernelIdeal.HostNorm

end
-- ==== Proof.KernelValue.lean ====
/-
  What the kernel's program leaves in its four result arrays.

  The grid has 32 points; point `t` holds rows `256 t … 256 t + 255` of both query arrays and of all four results, and
  the two memories and their rows of norms whole.  So what point `t` writes back to a result is block `t` of ONE
  whole-array function of the arguments — the one-query functions of CosineRecall.lean applied row by row — and the 32
  blocks tile each result array (row `r` lies in the block of point `r / 256`).
-/
import proofs.«151269_j75428215652524_1_alg».proof.Proof.Gen.KernelIdeal.Value
import proofs.«151269_j75428215652524_1_alg».proof.Proof.Tile
import proofs.«151269_j75428215652524_1_alg».proof.Proof.HostNorm
import proofs.«151269_j75428215652524_1_alg».proof.Proof.CosineRecall
import Idealize.ShloMosaic.Lib.Pipeline.Value
import Idealize.ShloMosaic.Lib.ValueIdx

noncomputable section

namespace Cert.KernelIdeal.RecallValue

open Cert.KernelIdeal Cert.KernelIdeal.Gen Cert.KernelIdeal.Value Idealize.ShloMosaic Idealize.ShloMosaic.ValueIdx
open Idealize.ShloMosaic.TcCoe Idealize.SL.Sem Cert.CosineRecall
open Idealize.ShloMosaic.Pipeline (Dat)

/-! ## One entry of a point's results from the arrays -/

/-- The logarithmic address a point leaves at block index `y` is the whole-array function at array index `i`, when
    query row `y 0` of the tile is row `i 0` of the query array, the staged memory is the memory array, the staged row
    of norms holds the memory rows' norms, and the two indices name the same memory row. -/
theorem logAddress_point (e : Vec Ideal S256x256 .f32) (mem : Vec Ideal S4096x256 .f32) (nrm : Vec Ideal S1x4096 .f32)
    (E : FVec Ideal S8192x256 .f32) (M : FVec Ideal S4096x256 .f32) (y : S256x4096.Idx) (i : S8192x4096.Idx)
    (hq : ∀ j : Fin 256, e (ix2 (⟨(y 0).val, idx2_lt0 y⟩ : Fin 256) j) = E (ix2 (⟨(i 0).val, idx2_lt0 i⟩ : Fin 8192) j))
    (hm : ∀ (s : Fin 4096) (j : Fin 256), mem (ix2 s j) = M (ix2 s j))
    (hn : ∀ s : Fin 4096, nrm (ix2 (0 : Fin 1) s) = rowNorm (mat M) s)
    (hc : (i 1).val = (y 1).val) :
    k0_pay4 (k0_pay11 e mem) (k0_pay12 e) nrm y = logAddressArr E M i := by
  obtain ⟨p, q, rfl⟩ : ∃ (p : Fin 256) (q : Fin 4096), y = ix2 p q := ⟨y 0, y 1, eq_ix2 y⟩
  obtain ⟨n, q', rfl⟩ : ∃ (n : Fin 8192) (q' : Fin 4096), i = ix2 n q' := ⟨i 0, i 1, eq_ix2 i⟩
  have hqq : q' = q := Fin.ext hc
  subst hqq
  rw [Tile.logAddress_eq]
  show logAddress (Tile.query e p) (Tile.rows mem) (Tile.nrmRow nrm) q' = logAddress (mat E n) (mat M) (rowNorm (mat M)) q'
  have h1 : Tile.query e p = mat E n := funext fun j => hq j
  have h2 : Tile.rows mem = mat M := funext fun s => funext fun j => hm s j
  have h3 : Tile.nrmRow nrm = rowNorm (mat M) := funext hn
  rw [h1, h2, h3]

/-- The recalled entry a point leaves at block index `y` is the whole-array function at array index `i`, under the
    same hypotheses and with the staged value memory the value array. -/
theorem recall_point (e : Vec Ideal S256x256 .f32) (mem : Vec Ideal S4096x256 .f32) (nrm : Vec Ideal S1x4096 .f32)
    (v : Vec Ideal S4096x256 .f32)
    (E : FVec Ideal S8192x256 .f32) (M : FVec Ideal S4096x256 .f32) (W : FVec Ideal S4096x256 .f32)
    (y : S256x256.Idx) (i : S8192x256.Idx)
    (hq : ∀ j : Fin 256, e (ix2 (⟨(y 0).val, idx2_lt0 y⟩ : Fin 256) j) = E (ix2 (⟨(i 0).val, idx2_lt0 i⟩ : Fin 8192) j))
    (hm : ∀ (s : Fin 4096) (j : Fin 256), mem (ix2 s j) = M (ix2 s j))
    (hn : ∀ s : Fin 4096, nrm (ix2 (0 : Fin 1) s) = rowNorm (mat M) s)
    (hv : ∀ (s : Fin 4096) (j : Fin 256), v (ix2 s j) = W (ix2 s j))
    (hc : (i 1).val = (y 1).val) :
    k0_pay5 v (k0_pay11 e mem) (k0_pay12 e) nrm y = recallArr E M W i := by
  obtain ⟨p, q, rfl⟩ : ∃ (p : Fin 256) (q : Fin 256), y = ix2 p q := ⟨y 0, y 1, eq_ix2 y⟩
  obtain ⟨n, q', rfl⟩ : ∃ (n : Fin 8192) (q' : Fin 256), i = ix2 n q' := ⟨i 0, i 1, eq_ix2 i⟩
  have hqq : q' = q := Fin.ext hc
  subst hqq
  rw [Tile.recall_eq]
  show recall (Tile.query e p) (Tile.rows mem) (Tile.nrmRow nrm) (fun s d => v (ix2 s d)) q'
    = recall (mat E n) (mat M) (rowNorm (mat M)) (mat W) q'
  have h1 : Tile.query e p = mat E n := funext fun j => hq j
  have h2 : Tile.rows mem = mat M := funext fun s => funext fun j => hm s j
  have h3 : Tile.nrmRow nrm = rowNorm (mat M) := funext hn
  have h4 : (fun s d => v (ix2 s d)) = mat W := funext fun s => funext fun j => hv s j
  rw [h1, h2, h3, h4]

/-! ## The windows' blocks on the grid -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the two query windows and the four result windows sit at block row
    `t`, block column `0`; the memories and their rows of norms sit at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Query row `p` of the face tile at point `t` is row `256 t + p` of the face array. -/
theorem face_row (c : Dev nD) (t : Fin cfg0.N) (p : Fin 256) (r : Fin 8192) (hr : r.val = t.val * 256 + p.val) (j : Fin 256) :
    iblk m c 0 t (ix2 p j) = V m c main_arg0 (ix2 r j) := by
  obtain ⟨e0, e1, -⟩ := idx_facts t
  show V m c main_arg0 (((cfg0.win 0).blk t).view.emb (ix2 p j)) = _
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 256 + 1 * j.val = j.val; omega

/-- Query row `p` of the speech tile at point `t` is row `256 t + p` of the speech array. -/
theorem speech_row (c : Dev nD) (t : Fin cfg0.N) (p : Fin 256) (r : Fin 8192) (hr : r.val = t.val * 256 + p.val) (j : Fin 256) :
    iblk m c 1 t (ix2 p j) = V m c main_arg1 (ix2 r j) := by
  obtain ⟨-, -, e0, e1, -⟩ := idx_facts t
  show V m c main_arg1 (((cfg0.win 1).blk t).view.emb (ix2 p j)) = _
  refine congrArg (V m c main_arg1) (funext fun a => Fin.ext ?_)
  match a with
  | ⟨0, _⟩ => show win0_1.index t (0 : Fin 2) * 256 + 1 * p.val = r.val; omega
  | ⟨1, _⟩ => show win0_1.index t (1 : Fin 2) * 256 + 1 * j.val = j.val; omega

/-- The key memory is staged whole at every point. -/
theorem key_mem (c : Dev nD) (t : Fin cfg0.N) (s : Fin 4096) (j : Fin 256) :
    iblk m c 2 t (ix2 s j) = V m c main_arg3 (ix2 s j) := by
  obtain ⟨-, -, -, -, e0, e1, -⟩ := idx_facts t
  show V m c main_arg3 (((cfg0.win 2).blk t).view.emb (ix2 s j)) = _
  refine congrArg (V m c main_arg3) (funext fun a => Fin.ext ?_)
  match a with
  | ⟨0, _⟩ => show win0_2.index t (0 : Fin 2) * 4096 + 1 * s.val = s.val; omega
  | ⟨1, _⟩ => show win0_2.index t (1 : Fin 2) * 256 + 1 * j.val = j.val; omega

/-- The value memory is staged whole at every point. -/
theorem value_mem (c : Dev nD) (t : Fin cfg0.N) (s : Fin 4096) (j : Fin 256) :
    iblk m c 3 t (ix2 s j) = V m c main_arg2 (ix2 s j) := by
  obtain ⟨-, -, -, -, -, -, e0, e1, -⟩ := idx_facts t
  show V m c main_arg2 (((cfg0.win 3).blk t).view.emb (ix2 s j)) = _
  refine congrArg (V m c main_arg2) (funext fun a => Fin.ext ?_)
  match a with
  | ⟨0, _⟩ => show win0_3.index t (0 : Fin 2) * 4096 + 1 * s.val = s.val; omega
  | ⟨1, _⟩ => show win0_3.index t (1 : Fin 2) * 256 + 1 * j.val = j.val; omega

/-- The staged row of key-memory norms holds the norms of the key memory's rows. -/
theorem key_norms (c : Dev nD) (t : Fin cfg0.N) (s : Fin 4096) :
    iblk m c 4 t (ix2 (0 : Fin 1) s) = rowNorm (mat (V m c main_arg3)) s := by
  obtain ⟨-, -, -, -, -, -, -, -, e0, e1, -⟩ := idx_facts t
  have hidx : ((cfg0.win 4).blk t).view.emb (ix2 (0 : Fin 1) s) = ix2 (0 : Fin 1) s := funext fun a => Fin.ext (by
    match a with
    | ⟨0, _⟩ => show win0_4.index t (0 : Fin 2) * 1 + 1 * 0 = 0; omega
    | ⟨1, _⟩ => show win0_4.index t (1 : Fin 2) * 4096 + 1 * s.val = s.val; omega)
  show (V m c main_v3 : S1x4096.Idx → EReal) (((cfg0.win 4).blk t).view.emb (ix2 (0 : Fin 1) s)) = _
  rw [hidx, HostNorm.V_main_v3, HostNorm.normRow_apply, V_main_arg3]

/-- The staged row of value-memory norms holds the norms of the value memory's rows. -/
theorem value_norms (c : Dev nD) (t : Fin cfg0.N) (s : Fin 4096) :
    iblk m c 5 t (ix2 (0 : Fin 1) s) = rowNorm (mat (V m c main_arg2)) s := by
  obtain ⟨-, -, -, -, -, -, -, -, -, -, e0, e1, -⟩ := idx_facts t
  have hidx : ((cfg0.win 5).blk t).view.emb (ix2 (0 : Fin 1) s) = ix2 (0 : Fin 1) s := funext fun a => Fin.ext (by
    match a with
    | ⟨0, _⟩ => show win0_5.index t (0 : Fin 2) * 1 + 1 * 0 = 0; omega
    | ⟨1, _⟩ => show win0_5.index t (1 : Fin 2) * 4096 + 1 * s.val = s.val; omega)
  show (V m c main_v1 : S1x4096.Idx → EReal) (((cfg0.win 5).blk t).view.emb (ix2 (0 : Fin 1) s)) = _
  rw [hidx, HostNorm.V_main_v1, HostNorm.normRow_apply, V_main_arg2]

/-! ## What each point writes back -/

/-- Point `t` writes block `t` of the speech pathway's recalled rows. -/
theorem flushed6_eq (c : Dev nD) (t : Fin cfg0.N) :
    (dats m 0 c).flushed 6 t = ((cfg0.win 6).blk t).view.read (Elt Ideal)
      (recallArr (V m c main_arg1) (V m c main_arg2) (V m c main_arg2)) := by
  rw [Value.flushed6]
  unfold out0_6
  rw [View.canon_unit_zero hz]
  simp only [View.ld_unit_zero (S := S256x256) hz, View.ld_unit_zero (S := S4096x256) hz,
    View.ld_unit_zero (S := S1x4096) hz]
  obtain ⟨-, -, -, -, -, -, -, -, -, -, -, -, e0, e1, -⟩ := idx_facts t
  funext y
  show k0_pay5 (iblk m c 3 t) (k0_pay11 (iblk m c 1 t) (iblk m c 3 t)) (k0_pay12 (iblk m c 1 t)) (iblk m c 5 t) y
    = recallArr (V m c main_arg1) (V m c main_arg2) (V m c main_arg2) (((cfg0.win 6).blk t).view.emb y)
  refine recall_point (iblk m c 1 t) (iblk m c 3 t) (iblk m c 5 t) (iblk m c 3 t) (V m c main_arg1) (V m c main_arg2)
    (V m c main_arg2) y (((cfg0.win 6).blk t).view.emb y) ?_ (value_mem m c t) (value_norms m c t) (value_mem m c t) ?_
  · intro j
    refine speech_row m c t _ _ ?_ j
    show win0_6.index t (0 : Fin 2) * 256 + 1 * (y 0).val = t.val * 256 + (y 0).val
    omega
  · show win0_6.index t (1 : Fin 2) * 256 + 1 * (y 1).val = (y 1).val
    omega

/-- Point `t` writes block `t` of the face pathway's recalled rows. -/
theorem flushed7_eq (c : Dev nD) (t : Fin cfg0.N) :
    (dats m 0 c).flushed 7 t = ((cfg0.win 7).blk t).view.read (Elt Ideal)
      (recallArr (V m c main_arg0) (V m c main_arg3) (V m c main_arg2)) := by
  rw [Value.flushed7]
  unfold out0_7
  rw [View.canon_unit_zero hz]
  simp only [View.ld_unit_zero (S := S256x256) hz, View.ld_unit_zero (S := S4096x256) hz,
    View.ld_unit_zero (S := S1x4096) hz]
  obtain ⟨-, -, -, -, -, -, -, -, -, -, -, -, -, -, e0, e1, -⟩ := idx_facts t
  funext y
  show k0_pay5 (iblk m c 3 t) (k0_pay11 (iblk m c 0 t) (iblk m c 2 t)) (k0_pay12 (iblk m c 0 t)) (iblk m c 4 t) y
    = recallArr (V m c main_arg0) (V m c main_arg3) (V m c main_arg2) (((cfg0.win 7).blk t).view.emb y)
  refine recall_point (iblk m c 0 t) (iblk m c 2 t) (iblk m c 4 t) (iblk m c 3 t) (V m c main_arg0) (V m c main_arg3)
    (V m c main_arg2) y (((cfg0.win 7).blk t).view.emb y) ?_ (key_mem m c t) (key_norms m c t) (value_mem m c t) ?_
  · intro j
    refine face_row m c t _ _ ?_ j
    show win0_7.index t (0 : Fin 2) * 256 + 1 * (y 0).val = t.val * 256 + (y 0).val
    omega
  · show win0_7.index t (1 : Fin 2) * 256 + 1 * (y 1).val = (y 1).val
    omega

/-- Point `t` writes block `t` of the speech pathway's logarithmic addresses. -/
theorem flushed8_eq (c : Dev nD) (t : Fin cfg0.N) :
    (dats m 0 c).flushed 8 t = ((cfg0.win 8).blk t).view.read (Elt Ideal)
      (logAddressArr (V m c main_arg1) (V m c main_arg2)) := by
  rw [Value.flushed8]
  unfold out0_8
  rw [View.canon_unit_zero hz]
  simp only [View.ld_unit_zero (S := S256x256) hz, View.ld_unit_zero (S := S4096x256) hz,
    View.ld_unit_zero (S := S1x4096) hz]
  obtain ⟨-, -, -, -, -, -, -, -, -, -, -, -, -, -, -, -, e0, e1, -⟩ := idx_facts t
  funext y
  show k0_pay4 (k0_pay11 (iblk m c 1 t) (iblk m c 3 t)) (k0_pay12 (iblk m c 1 t)) (iblk m c 5 t) y
    = logAddressArr (V m c main_arg1) (V m c main_arg2) (((cfg0.win 8).blk t).view.emb y)
  refine logAddress_point (iblk m c 1 t) (iblk m c 3 t) (iblk m c 5 t) (V m c main_arg1) (V m c main_arg2)
    y (((cfg0.win 8).blk t).view.emb y) ?_ (value_mem m c t) (value_norms m c t) ?_
  · intro j
    refine speech_row m c t _ _ ?_ j
    show win0_8.index t (0 : Fin 2) * 256 + 1 * (y 0).val = t.val * 256 + (y 0).val
    omega
  · show win0_8.index t (1 : Fin 2) * 4096 + 1 * (y 1).val = (y 1).val
    omega

/-- Point `t` writes block `t` of the face pathway's logarithmic addresses. -/
theorem flushed9_eq (c : Dev nD) (t : Fin cfg0.N) :
    (dats m 0 c).flushed 9 t = ((cfg0.win 9).blk t).view.read (Elt Ideal)
      (logAddressArr (V m c main_arg0) (V m c main_arg3)) := by
  rw [Value.flushed9]
  unfold out0_9
  rw [View.canon_unit_zero hz]
  simp only [View.ld_unit_zero (S := S256x256) hz, View.ld_unit_zero (S := S4096x256) hz,
    View.ld_unit_zero (S := S1x4096) hz]
  obtain ⟨-, -, -, -, -, -, -, -, -, -, -, -, -, -, -, -, -, -, e0, e1⟩ := idx_facts t
  funext y
  show k0_pay4 (k0_pay11 (iblk m c 0 t) (iblk m c 2 t)) (k0_pay12 (iblk m c 0 t)) (iblk m c 4 t) y
    = logAddressArr (V m c main_arg0) (V m c main_arg3) (((cfg0.win 9).blk t).view.emb y)
  refine logAddress_point (iblk m c 0 t) (iblk m c 2 t) (iblk m c 4 t) (V m c main_arg0) (V m c main_arg3)
    y (((cfg0.win 9).blk t).view.emb y) ?_ (key_mem m c t) (key_norms m c t) ?_
  · intro j
    refine face_row m c t _ _ ?_ j
    show win0_9.index t (0 : Fin 2) * 256 + 1 * (y 0).val = t.val * 256 + (y 0).val
    omega
  · show win0_9.index t (1 : Fin 2) * 4096 + 1 * (y 1).val = (y 1).val
    omega

/-! ## The blocks tile the result arrays: row `r` lies in the block of point `r / 256` -/

theorem cover6 (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  have hN : grid0.N = 32 := N_0
  have ht : (i 0).val / 256 < cfg0.N := by show (i 0).val / 256 < grid0.N; omega
  obtain ⟨-, -, -, -, -, -, -, -, -, -, -, -, e0, e1, -⟩ := idx_facts ⟨(i 0).val / 256, ht⟩
  refine ⟨⟨(i 0).val / 256, ht⟩, flush0_6 _, ?_⟩
  show i ∈ ((View.whole main_v4_0).slice (win0_6.rect ⟨(i 0).val / 256, ht⟩)).set
  rw [View.set_slice_whole, Rect.mem_set_unit]
  intro a
  match a with
  | ⟨0, _⟩ =>
    show win0_6.index ⟨(i 0).val / 256, ht⟩ (0 : Fin 2) * 256 ≤ (i 0).val
      ∧ (i 0).val < win0_6.index ⟨(i 0).val / 256, ht⟩ (0 : Fin 2) * 256 + 256
    have : (⟨(i 0).val / 256, ht⟩ : Fin cfg0.N).val = (i 0).val / 256 := rfl
    omega
  | ⟨1, _⟩ =>
    show win0_6.index ⟨(i 0).val / 256, ht⟩ (1 : Fin 2) * 256 ≤ (i 1).val
      ∧ (i 1).val < win0_6.index ⟨(i 0).val / 256, ht⟩ (1 : Fin 2) * 256 + 256
    omega

theorem cover7 (i : S8192x256.Idx) :
    ∃ t : Fin cfg0.N, (cfg0.win 7).flush t = true ∧ i ∈ ((cfg0.win 7).blk t).view.set := by
  have hi0 : (i 0).val < 8192 := (i 0).isLt
  have hi1 : (i 1).val < 256 := (i 1).isLt
  have hN : grid0.N = 32 := N_0
  have ht : (i 0).val / 256 < cfg0.N := by show (i 0).val / 256 < grid0.N; omega
  obtain ⟨-, -, -, -, -, -, -, -, -, -, -, -, -, -, e0, e1, -⟩ := idx_facts ⟨(i 0).val / 256, ht⟩
  refine ⟨⟨(i 0).val / 256, ht⟩, flush0_7 _, ?_⟩
  show i ∈ ((View.whole main_v4_1).slice (win0_7.rect ⟨(i 0).val / 256, ht⟩)).set
  rw [View.set_slice_whole, Rect.mem_set_unit]
  intro a
  match a with
  | ⟨0, _⟩ =>
    show win0_7.index ⟨(i 0).val / 256, ht⟩ (0 : Fin 2) * 256 ≤ (i 0).val
      ∧ (i 0).val < win0_7.index ⟨(i 0).val / 256, ht⟩ (0 : Fin 2) * 256 + 256
    have : (⟨(i 0).val / 256, ht⟩ : Fin cfg0.N).val = (i 0).val / 256 := rfl
    omega
  | ⟨1, _⟩ =>
    show win0_7.index ⟨(i 0).val / 256, ht⟩ (1 : Fin 2) * 256 ≤ (i 1).val
      ∧ (i 1).val < win0_7.index ⟨(i 0).val / 256, ht⟩ (1 : Fin 2) * 256 + 256
    omega

theorem cover8 (i : S8192x4096.Idx) :
    ∃ t : Fin cfg0.N, (cfg0.win 8).flush t = true ∧ i ∈ ((cfg0.win 8).blk t).view.set := by
  have hi0 : (i 0).val < 8192 := (i 0).isLt
  have hi1 : (i 1).val < 4096 := (i 1).isLt
  have hN : grid0.N = 32 := N_0
  have ht : (i 0).val / 256 < cfg0.N := by show (i 0).val / 256 < grid0.N; omega
  obtain ⟨-, -, -, -, -, -, -, -, -, -, -, -, -, -, -, -, e0, e1, -⟩ := idx_facts ⟨(i 0).val / 256, ht⟩
  refine ⟨⟨(i 0).val / 256, ht⟩, flush0_8 _, ?_⟩
  show i ∈ ((View.whole main_v4_2).slice (win0_8.rect ⟨(i 0).val / 256, ht⟩)).set
  rw [View.set_slice_whole, Rect.mem_set_unit]
  intro a
  match a with
  | ⟨0, _⟩ =>
    show win0_8.index ⟨(i 0).val / 256, ht⟩ (0 : Fin 2) * 256 ≤ (i 0).val
      ∧ (i 0).val < win0_8.index ⟨(i 0).val / 256, ht⟩ (0 : Fin 2) * 256 + 256
    have : (⟨(i 0).val / 256, ht⟩ : Fin cfg0.N).val = (i 0).val / 256 := rfl
    omega
  | ⟨1, _⟩ =>
    show win0_8.index ⟨(i 0).val / 256, ht⟩ (1 : Fin 2) * 4096 ≤ (i 1).val
      ∧ (i 1).val < win0_8.index ⟨(i 0).val / 256, ht⟩ (1 : Fin 2) * 4096 + 4096
    omega

theorem cover9 (i : S8192x4096.Idx) :
    ∃ t : Fin cfg0.N, (cfg0.win 9).flush t = true ∧ i ∈ ((cfg0.win 9).blk t).view.set := by
  have hi0 : (i 0).val < 8192 := (i 0).isLt
  have hi1 : (i 1).val < 4096 := (i 1).isLt
  have hN : grid0.N = 32 := N_0
  have ht : (i 0).val / 256 < cfg0.N := by show (i 0).val / 256 < grid0.N; omega
  obtain ⟨-, -, -, -, -, -, -, -, -, -, -, -, -, -, -, -, -, -, e0, e1⟩ := idx_facts ⟨(i 0).val / 256, ht⟩
  refine ⟨⟨(i 0).val / 256, ht⟩, flush0_9 _, ?_⟩
  show i ∈ ((View.whole main_v4_3).slice (win0_9.rect ⟨(i 0).val / 256, ht⟩)).set
  rw [View.set_slice_whole, Rect.mem_set_unit]
  intro a
  match a with
  | ⟨0, _⟩ =>
    show win0_9.index ⟨(i 0).val / 256, ht⟩ (0 : Fin 2) * 256 ≤ (i 0).val
      ∧ (i 0).val < win0_9.index ⟨(i 0).val / 256, ht⟩ (0 : Fin 2) * 256 + 256
    have : (⟨(i 0).val / 256, ht⟩ : Fin cfg0.N).val = (i 0).val / 256 := rfl
    omega
  | ⟨1, _⟩ =>
    show win0_9.index ⟨(i 0).val / 256, ht⟩ (1 : Fin 2) * 4096 ≤ (i 1).val
      ∧ (i 1).val < win0_9.index ⟨(i 0).val / 256, ht⟩ (1 : Fin 2) * 4096 + 4096
    omega

/-! ## The result arrays after the run -/

theorem final6 (c : Dev nD) :
    (dats m 0 c).arrAt 6 cfg0.N = recallArr (V m c main_arg1) (V m c main_arg2) (V m c main_arg2) :=
  (dats m 0 c).arrAt_eq_of_cover 6 (recallArr (V m c main_arg1) (V m c main_arg2) (V m c main_arg2))
    (fun t _ => flushed6_eq m c t) cover6

theorem final7 (c : Dev nD) :
    (dats m 0 c).arrAt 7 cfg0.N = recallArr (V m c main_arg0) (V m c main_arg3) (V m c main_arg2) :=
  (dats m 0 c).arrAt_eq_of_cover 7 (recallArr (V m c main_arg0) (V m c main_arg3) (V m c main_arg2))
    (fun t _ => flushed7_eq m c t) cover7

theorem final8 (c : Dev nD) :
    (dats m 0 c).arrAt 8 cfg0.N = logAddressArr (V m c main_arg1) (V m c main_arg2) :=
  (dats m 0 c).arrAt_eq_of_cover 8 (logAddressArr (V m c main_arg1) (V m c main_arg2))
    (fun t _ => flushed8_eq m c t) cover8

theorem final9 (c : Dev nD) :
    (dats m 0 c).arrAt 9 cfg0.N = logAddressArr (V m c main_arg0) (V m c main_arg3) :=
  (dats m 0 c).arrAt_eq_of_cover 9 (logAddressArr (V m c main_arg0) (V m c main_arg3))
    (fun t _ => flushed9_eq m c t) cover9

/-- The kernel's run: every weakly fair execution terminates with each result array at its whole-array function of
    the argument arrays, the arguments unchanged. -/
theorem run : θ_run defs (onTc (τ := τ) (main (F := Ideal))) ⟨m, fun _ => 0, ρ⟩ fun r => ∀ c : Dev nD,
      r.2.mem ((c : Thread nD τ).loc main_v4_0)
        = recallArr (m ((c : Thread nD τ).loc main_arg1)) (m ((c : Thread nD τ).loc main_arg2)) (m ((c : Thread nD τ).loc main_arg2))
      ∧ r.2.mem ((c : Thread nD τ).loc main_v4_1)
        = recallArr (m ((c : Thread nD τ).loc main_arg0)) (m ((c : Thread nD τ).loc main_arg3)) (m ((c : Thread nD τ).loc main_arg2))
      ∧ r.2.mem ((c : Thread nD τ).loc main_v4_2)
        = logAddressArr (m ((c : Thread nD τ).loc main_arg1)) (m ((c : Thread nD τ).loc main_arg2))
      ∧ r.2.mem ((c : Thread nD τ).loc main_v4_3)
        = logAddressArr (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((final6 m c).trans (by rw [V_main_arg1, V_main_arg2])),
      (h c).2.1.trans ((final7 m c).trans (by rw [V_main_arg0, V_main_arg3, V_main_arg2])),
      (h c).2.2.1.trans ((final8 m c).trans (by rw [V_main_arg1, V_main_arg2])),
      (h c).2.2.2.1.trans ((final9 m c).trans (by rw [V_main_arg0, V_main_arg3])),
      (h c).2.2.2.2⟩)
    (Value.run_blocks m ρ)

end Cert.KernelIdeal.RecallValue

end
-- ==== Proof.LibHostLogSoftmaxRow.lean ====
/-
  The host's row-wise log-softmax read at an entry, on the extended reals.

  The host spells it, for an `[a, b]` array `x`: the row maximum by a reduce with a maximum body from `−∞`, joined once
  more with `−∞`; kept as an `[a, 1]` column and broadcast back over the lanes; subtracted; exponentiated; summed over
  each row from `0`; kept as a column; its logarithm broadcast back and subtracted. At entry `(p, c)` that is
  `(x (p, c) − m) − log (Σ_k exp (x (p, k) − m))` with `m` the fold of `max` from `−∞` over row `p`.
-/
import proofs.«151269_j75428215652524_1_alg».proof.Proof.LibLogSoftmaxRow
import Idealize.ShloMosaic.PureOps.Reduce

noncomputable section

namespace Idealize.ShloMosaic.HostLogSoftmaxRow

open Idealize.ShloMosaic Idealize.ShloMosaic.ValueIdx Idealize.ShloMosaic.LogSoftmaxRow

variable {a b : ℕ}

/-- The reduced index `p` with lane `k` put back is `(p, k)`. -/
theorem lift_ix1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- Joining with `−∞` changes nothing. -/
theorem max_neg_inf (y : EReal) : max (Ideal.ofBits .f32 0xFF800000#32) y = y := by
  rw [ofBits_neg_inf]; exact max_eq_right bot_le

/-- The host's row maximum from `−∞`, joined with `−∞`, kept as a column and broadcast back, reads at `(p, c)` the
    row's largest entry. -/
theorem hostTop_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (broadcastInDim ⟨2, ![a, 1]⟩ ![0] hb1
      (maximumf (broadcastInDim ⟨1, ![a]⟩ ![] hb0 (constant (F := Ideal) ⟨0, ![]⟩ .f32 0xFF800000#32))
        (Host.reduce FloatOps.maximumf x (constant (F := Ideal) ⟨0, ![]⟩ .f32 0xFF800000#32) h' hu))) (ix2 p c)
      = rowTop x p := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  rw [maximumf_apply, broadcastInDim_apply ![] hb0 _ (ix1 p) ix0 (fun ax => ax.elim0)]
  rw [Host.reduce_eq_fold_single FloatOps.maximumf x _ h' h hu]
  show max (Ideal.ofBits .f32 0xFF800000#32) ((Finset.univ : Finset (Fin b)).fold max (Ideal.ofBits .f32 0xFF800000#32) (x ∘ h.lift (ix1 p))) = _
  rw [max_neg_inf, ofBits_neg_inf]
  unfold rowTop
  refine congrArg (fun f => (Finset.univ : Finset (Fin b)).fold max ⊥ f) (funext fun k => ?_)
  exact congrArg x (lift_ix1 h p k)

/-- The host's row sum from `0` of an array `w`, kept as a column, its logarithm broadcast back, reads at `(p, c)` the
    logarithm of row `p`'s sum. -/
theorem hostLogSum_apply (w : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (Host.log (broadcastInDim ⟨2, ![a, 1]⟩ ![0] hb1
      (Host.reduceAdd w (constant (F := Ideal) ⟨0, ![]⟩ .f32 0x00000000#32) h' hu))) (ix2 p c)
      = Ideal.log (∑ k : Fin b, w (ix2 p k)) := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  show Ideal.log (broadcastInDim ⟨2, ![a, 1]⟩ ![0] hb1 (Host.reduceAdd w (constant (F := Ideal) ⟨0, ![]⟩ .f32 0x00000000#32) h' hu) (ix2 p (0 : Fin 1))) = _
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  refine congrArg Ideal.log ?_
  show Ideal.hostReduceAdd h' w (Ideal.ofBits .f32 0x00000000#32) (ix1 p) = _
  rw [Ideal.hostReduceAdd_single h' h, Ideal.ofBits_zero_f32, zero_add]
  exact Finset.sum_congr rfl fun k _ => congrArg w (lift_ix1 h p k)

/-- The host's whole row-wise log-softmax at entry `(p, c)`. -/
theorem hostLogSoftmax_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    subf (subf x (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) h' hu)))))
      (broadcastInDim ⟨2, ![a, b]⟩ ![0, 1] hb2 (Host.log (broadcastInDim ⟨2, ![a, 1]⟩ ![0] hb1
        (Host.reduceAdd (Host.exp (subf x (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf x (constant (F := Ideal) ⟨0, ![]⟩ .f32 0xFF800000#32) h' hu))))))
          (constant (F := Ideal) ⟨0, ![]⟩ .f32 0x00000000#32) h' hu)))) (ix2 p c)
      = (x (ix2 p c) - rowTop x p) - Ideal.log (∑ k : Fin b, Ideal.exp (x (ix2 p k) - rowTop x p)) := by
  rw [subf_apply, subf_apply, hostTop_apply x h' h hu hb0 hb1 hb2 p c, hostLogSum_apply _ h' h hu hb1 hb2 p c]
  refine congrArg (fun s => (x (ix2 p c) - rowTop x p) - Ideal.log s) (Finset.sum_congr rfl fun k _ => ?_)
  show Ideal.exp (subf x _ (ix2 p k)) = _
  rw [subf_apply, hostTop_apply x h' h hu hb0 hb1 hb2 p k]

end Idealize.ShloMosaic.HostLogSoftmaxRow

end
-- ==== Proof.RefValue.lean ====
/-
  What the reference program computes, read at an entry.

  The reference scores ALL queries at once: a matrix product of the query array with the transposed memory, the
  queries' norms kept as a column, the memory rows' norms laid as a row, the floored denominator, the quotient; then
  twice over the score array — once for the logarithmic addresses, once for the addresses — the row maximum from `−∞`
  (joined once more with `−∞`), the shifted scores, their exponentials and the row sums; and a matrix product of the
  addresses with the value memory.  Read at entry `(n, q)` every stage depends on query row `n` alone, and the results
  are the one-query functions of CosineRecall.lean at that row.
-/
import proofs.«151269_j75428215652524_1_alg».proof.Proof.RefRead
import proofs.«151269_j75428215652524_1_alg».proof.Proof.CosineRecall
import proofs.«151269_j75428215652524_1_alg».proof.Proof.LibPlainDot
import proofs.«151269_j75428215652524_1_alg».proof.Proof.LibHostKeepdims
import proofs.«151269_j75428215652524_1_alg».proof.Proof.LibHostLogSoftmaxRow
import proofs.«151269_j75428215652524_1_alg».proof.Proof.LibRowBroadcast
import Idealize.ShloMosaic.Lib.Pipeline.Value
import Idealize.ShloMosaic.Lib.ValueIdx
import Idealize.ShloMosaic.PureOps.Ideal.Laws

noncomputable section

namespace Cert.ReferenceIdeal.RecallValue

open Cert.ReferenceIdeal Cert.ReferenceIdeal.Gen Cert.ReferenceIdeal.ReadP Idealize.ShloMosaic Idealize.ShloMosaic.ValueIdx
open Cert.CosineRecall
open Idealize.ShloMosaic.LogSoftmaxRow (rowTop)

variable (x : FVec Ideal S8192x256 .f32) (y : FVec Ideal S4096x256 .f32)

/-- The inner product of query `n` with memory row `k`: the product with the transposed memory. -/
theorem num_apply (n : Fin 8192) (k : Fin 4096) :
    val_main_v1 (F := Ideal) x y (ix2 n k) = ∑ j : Fin 256, x (ix2 n j) * y (ix2 k j) := by
  rw [val_main_v1_apply]
  refine Finset.sum_congr rfl fun j _ => ?_
  rw [val_main_v0_apply]
  have e1 : lidx_main_v1 (ix2 n k) j = ix2 n j :=
    funext fun a => Fin.ext (by match a with | ⟨0, _⟩ => rfl | ⟨1, _⟩ => rfl)
  have e2 : idx_main_v0 (ridx_main_v1 (ix2 n k) j) = ix2 k j :=
    funext fun a => Fin.ext (by match a with | ⟨0, _⟩ => rfl | ⟨1, _⟩ => rfl)
  rw [e1, e2]

/-- The norm of query `n`, kept in a column. -/
theorem queryNorm_apply (n : Fin 8192) (u : Fin 1) :
    val_main_v2 (F := Ideal) x (ix2 n u) = Ideal.sqrt (∑ j : Fin 256, x (ix2 n j) * x (ix2 n j)) := by
  unfold val_main_v2 val_main_call0_v2 val_main_call0_v1 val_main_call0_v0 val_main_call0_cst
  show Ideal.sqrt (broadcastInDim S8192x1 ![0] bcast_S8192_S8192x1_0 (Host.reduceAdd (mulf x x)
    (constant (F := Ideal) S_ .f32 0x00000000#32) reducesTo_S8192x256_S8192_d1 h_S_) (ix2 n u)) = _
  rw [HostKeepdims.bcast_a_a1_apply,
    HostKeepdims.hostRowSum_apply (mulf x x) reducesTo_S8192x256_S8192_d1 (by decide) h_S_ n]
  rfl

/-- The norm of memory row `k`, laid in a row. -/
theorem memNorm_apply (z : Fin 1) (k : Fin 4096) :
    val_main_v4 (F := Ideal) y (ix2 z k) = rowNorm (mat y) k := by
  unfold val_main_v4 val_main_v3 val_main_call1_v1 val_main_call1_v0 val_main_call1_cst
  rw [RowBroadcast.broadcastInDim_flat_apply (![1] : Fin 1 → Fin 2) rfl bcast_S4096_S1x4096_1 _ z k]
  show Ideal.sqrt (Host.reduceAdd (mulf y y) (constant (F := Ideal) S_ .f32 0x00000000#32)
    reducesTo_S4096x256_S4096_d1 h_S_ (ix1 k)) = _
  rw [HostKeepdims.hostRowSum_apply (mulf y y) reducesTo_S4096x256_S4096_d1 (by decide) h_S_ k]
  rfl

/-- The score of query `n` against memory row `k`. -/
theorem score_eq (n : Fin 8192) (k : Fin 4096) :
    val_main_v10 (F := Ideal) x y (ix2 n k) = score (mat x n) (mat y) (rowNorm (mat y)) k := by
  rw [val_main_v10_apply, val_main_v9_apply, val_main_v7_apply, num_apply, val_main_v5_apply, val_main_v6_apply,
    val_main_v8_apply, val_main_cst_apply]
  have e5 : idx_main_v5 (ix2 n k) = ix2 n (0 : Fin 1) :=
    funext fun a => Fin.ext (by match a with | ⟨0, _⟩ => rfl | ⟨1, _⟩ => rfl)
  have e6 : idx_main_v6 (ix2 n k) = ix2 (0 : Fin 1) k :=
    funext fun a => Fin.ext (by match a with | ⟨0, _⟩ => rfl | ⟨1, _⟩ => rfl)
  rw [e5, e6, queryNorm_apply, memNorm_apply]
  rfl

/-- The largest score of query `n`. -/
theorem top_eq (n : Fin 8192) :
    rowTop (val_main_v10 (F := Ideal) x y) n = top (mat x n) (mat y) (rowNorm (mat y)) := by
  unfold LogSoftmaxRow.rowTop CosineRecall.top
  exact congrArg (fun f => (Finset.univ : Finset (Fin 4096)).fold max ⊥ f) (funext fun k => score_eq x y n k)

theorem weight_eq (n : Fin 8192) (k : Fin 4096) :
    Ideal.exp (val_main_v10 (F := Ideal) x y (ix2 n k) - rowTop (val_main_v10 (F := Ideal) x y) n)
      = weight (mat x n) (mat y) (rowNorm (mat y)) k := by
  rw [score_eq, top_eq]
  rfl

theorem mass_eq (n : Fin 8192) :
    (∑ k : Fin 4096, Ideal.exp (val_main_v10 (F := Ideal) x y (ix2 n k) - rowTop (val_main_v10 (F := Ideal) x y) n))
      = mass (mat x n) (mat y) (rowNorm (mat y)) :=
  Finset.sum_congr rfl fun k _ => weight_eq x y n k

/-- The reference's logarithmic addresses are the whole-array function. -/
theorem logAddress_eq : val_main_v11 (F := Ideal) x y = logAddressArr x y := by
  funext i
  obtain ⟨n, q, rfl⟩ : ∃ (n : Fin 8192) (q : Fin 4096), i = ix2 n q := ⟨i 0, i 1, eq_ix2 i⟩
  refine (HostLogSoftmaxRow.hostLogSoftmax_apply (val_main_v10 (F := Ideal) x y) reducesTo_S8192x4096_S8192_d1
    (by decide) h_S_ bcast_S_S8192 bcast_S8192_S8192x1_0 bcast_S8192x1_S8192x4096_0_1 n q).trans ?_
  rw [mass_eq, score_eq, top_eq]
  rfl

/-- The shifted scores of the address computation. -/
theorem shifted_apply (n : Fin 8192) (s : Fin 4096) :
    val_main_v17 (F := Ideal) x y (ix2 n s)
      = val_main_v10 (F := Ideal) x y (ix2 n s) - rowTop (val_main_v10 (F := Ideal) x y) n :=
  (subf_apply _ _ _).trans (congrArg (fun t => val_main_v10 (F := Ideal) x y (ix2 n s) - t)
    (HostLogSoftmaxRow.hostTop_apply (val_main_v10 (F := Ideal) x y) reducesTo_S8192x4096_S8192_d1 (by decide) h_S_
      bcast_S_S8192 bcast_S8192_S8192x1_0 bcast_S8192x1_S8192x4096_0_1 n s))

/-- The row sums of the exponentials, broadcast back over the row. -/
theorem massRow_apply (n : Fin 8192) (s : Fin 4096) :
    val_main_v21 (F := Ideal) x y (ix2 n s)
      = ∑ k : Fin 4096, Ideal.exp (val_main_v10 (F := Ideal) x y (ix2 n k) - rowTop (val_main_v10 (F := Ideal) x y) n) := by
  unfold val_main_v21 val_main_v20 val_main_v19 val_main_cst_2
  rw [HostKeepdims.bcast_a1_ab_apply, HostKeepdims.bcast_a_a1_apply,
    HostKeepdims.hostRowSum_apply (val_main_v18 (F := Ideal) x y) reducesTo_S8192x4096_S8192_d1 (by decide) h_S_ n]
  refine Finset.sum_congr rfl fun k _ => ?_
  show Ideal.exp (val_main_v17 (F := Ideal) x y (ix2 n k)) = _
  rw [shifted_apply]

/-- The addresses. -/
theorem address_apply (n : Fin 8192) (s : Fin 4096) :
    val_main_v22 (F := Ideal) x y (ix2 n s)
      = Ideal.div (weight (mat x n) (mat y) (rowNorm (mat y)) s) (mass (mat x n) (mat y) (rowNorm (mat y))) := by
  show Ideal.div (Ideal.exp (val_main_v17 (F := Ideal) x y (ix2 n s))) (val_main_v21 (F := Ideal) x y (ix2 n s)) = _
  rw [shifted_apply, massRow_apply, mass_eq, weight_eq]

/-- The rows recalled from a value memory `w` through the addresses are the whole-array function. -/
theorem recall_eq (w : FVec Ideal S4096x256 .f32) :
    Host.dotGeneral (φ₁ := .f32) (φ₂ := .f32) dot_S8192x4096_S4096x256_S8192x256_1_0_0_1_n_n none (val_main_v22 (F := Ideal) x y) w
      = recallArr x y w := by
  funext i
  obtain ⟨n, c, rfl⟩ : ∃ (n : Fin 8192) (c : Fin 256), i = ix2 n c := ⟨i 0, i 1, eq_ix2 i⟩
  refine (PlainDot.dotGeneral_apply dot_S8192x4096_S4096x256_S8192x256_1_0_0_1_n_n none rfl rfl lhs_main_v23_0
    lhs_main_v23_1 rhs_main_v23_0 rhs_main_v23_1 (val_main_v22 (F := Ideal) x y) w n c).trans ?_
  show _ = recall (mat x n) (mat y) (rowNorm (mat y)) (mat w) c
  unfold CosineRecall.recall
  exact Finset.sum_congr rfl fun s _ => by rw [address_apply]

/-- The speech pathway's recall: queries `x`, addressed through and recalled from the same memory. -/
theorem speechRecall_eq : val_main_v23 (F := Ideal) x y = recallArr x y y :=
  recall_eq x y y

/-- The face pathway's stages are the speech pathway's at its own arguments (the same operations in the same
    order), so its results are the same whole-array functions. -/
theorem faceLogAddress_eq : val_main_v35 (F := Ideal) x y = logAddressArr x y :=
  (show val_main_v35 (F := Ideal) x y = val_main_v11 (F := Ideal) x y from rfl).trans (logAddress_eq x y)

theorem faceRecall_eq (w : FVec Ideal S4096x256 .f32) : val_main_v47 (F := Ideal) x w y = recallArr x y w :=
  (show val_main_v47 (F := Ideal) x w y
      = Host.dotGeneral (φ₁ := .f32) (φ₂ := .f32) dot_S8192x4096_S4096x256_S8192x256_1_0_0_1_n_n none (val_main_v22 (F := Ideal) x y) w from rfl).trans
    (recall_eq x y w)

end Cert.ReferenceIdeal.RecallValue

end
-- ==== Proof.lean ====
/-
  Cosine-similarity memory addressing with softmax recall: the kernel against its reference, on the extended reals.

  Both programs take two arrays of 8192 query rows (face, speech) of length 256 and two memories of 4096 rows (a value
  memory, a key memory).  For each query array they score every query against every row of its memory by cosine
  similarity with the denominator floored at the binary32 number nearest 1e-8, turn the scores of a query into softmax
  addresses (shifted by the largest score), and return the queries themselves, the logarithmic addresses, and the
  address-weighted sums of the VALUE memory's rows (for both pathways).

  The kernel does this for 256 queries at a time, 32 times, with the memories and precomputed rows of their norms
  resident; the reference does it for all queries at once.  Every result entry depends on ONE query row, the memory it
  is addressed through, and the value memory, through the one-query functions of CosineRecall.lean; the two programs
  compute those functions with the same operations in the same arrangement (the only extra step, the reference's join
  of the row maximum with `−∞`, changes nothing), so no law of arithmetic beyond the reading of each operation is used
  and the precondition is never opened.

  Tile.lean reads the kernel's arithmetic at an entry, HostNorm.lean the rows of norms prepared before the grid,
  KernelValue.lean assembles the kernel's four result arrays from the 32 blocks, RefRun.lean runs the reference piece by
  piece, RefValue.lean reads its stages, and this module sets the two runs side by side.
-/
import proofs.«151269_j75428215652524_1_alg».proof.Defs
import proofs.«151269_j75428215652524_1_alg».proof.Proof.Gen.Kernel
import proofs.«151269_j75428215652524_1_alg».proof.Proof.Gen.Kernel.Skeleton
import proofs.«151269_j75428215652524_1_alg».proof.Proof.Gen.Kernel.Launch
import proofs.«151269_j75428215652524_1_alg».proof.Proof.Gen.Kernel.Points
import proofs.«151269_j75428215652524_1_alg».proof.Proof.Gen.Kernel.Frame
import proofs.«151269_j75428215652524_1_alg».proof.Proof.Gen.KernelIdeal
import proofs.«151269_j75428215652524_1_alg».proof.Proof.Gen.KernelIdeal.Skeleton
import proofs.«151269_j75428215652524_1_alg».proof.Proof.Gen.KernelIdeal.Launch
import proofs.«151269_j75428215652524_1_alg».proof.Proof.Gen.KernelIdeal.Points
import proofs.«151269_j75428215652524_1_alg».proof.Proof.Gen.KernelIdeal.Frame
import proofs.«151269_j75428215652524_1_alg».proof.Proof.Gen.ReferenceIdeal
import proofs.«151269_j75428215652524_1_alg».proof.Proof.Gen.Pre_finite_inputs
import proofs.«151269_j75428215652524_1_alg».proof.Proof.Gen.KernelIdeal.Value
import proofs.«151269_j75428215652524_1_alg».proof.Proof.RefRun
import proofs.«151269_j75428215652524_1_alg».proof.Proof.KernelValue
import proofs.«151269_j75428215652524_1_alg».proof.Proof.RefValue
import Idealize.ShloMosaic.Adequacy
import Idealize.ShloMosaic.Init

noncomputable section

namespace Cert.Proof

open Idealize.ShloMosaic Idealize.ShloMosaic.TcCoe Idealize.SL.Sem Cert.CosineRecall

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the results dropped. -/
theorem frame_referenceIdeal : Cert.frame_ReferenceIdeal := fun m ρ _ =>
  (θ_run Cert.ReferenceIdeal.defs _ _).mono (fun _ h c => (h c).2.2.2.2)
    (Cert.ReferenceIdeal.StagedRun.run (F := Ideal) m ρ)

/-- From memories that agree on the four arguments, both programs end with the two query arrays unchanged and with
    the recalled rows and the logarithmic addresses of both pathways at the same whole-array functions of the
    arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => recallArr (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg0),
    fun c => recallArr (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)),
    fun c => logAddressArr (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => logAddressArr (m ((c.tc : Thread Cert.KernelIdeal.nD Cert.KernelIdeal.τ).loc Cert.KernelIdeal.main_arg0))
      (m ((c.tc : Thread Cert.KernelIdeal.nD Cert.KernelIdeal.τ).loc Cert.KernelIdeal.main_arg3)), ?_, ?_⟩
  · exact (θ_run Cert.KernelIdeal.defs _ _).mono (fun r h c =>
      ⟨(h c).2.2.2.2.2.1, (h c).1, (h c).2.2.2.2.1, (h c).2.1, (h c).2.2.1, (h c).2.2.2.1, (h c).2.2.2.2⟩)
      (Cert.KernelIdeal.RecallValue.run m ρ)
  · refine (θ_run Cert.ReferenceIdeal.defs _ _).mono (fun r h c => ?_)
      (Cert.ReferenceIdeal.StagedRun.run (F := Ideal) m' ρ')
    obtain ⟨a0, a1, a2, a3⟩ := hagree c
    refine ⟨(h c).2.2.2.2.2.1.trans a1, (h c).1.trans ?_, (h c).2.2.2.2.1.trans a0, (h c).2.1.trans ?_,
      (h c).2.2.1.trans ?_, (h c).2.2.2.1.trans ?_, (h c).2.2.2.2⟩
    · rw [Cert.ReferenceIdeal.RecallValue.speechRecall_eq, a1, a2]
    · rw [Cert.ReferenceIdeal.RecallValue.faceRecall_eq, a0, a2, a3]
    · rw [Cert.ReferenceIdeal.RecallValue.logAddress_eq, a1, a2]
    · rw [Cert.ReferenceIdeal.RecallValue.faceLogAddress_eq, a0, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
